-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S1600000x3 : Shape := ⟨2, ![1600000, 3]⟩
abbrev S9x64 : Shape := ⟨2, ![9, 64]⟩
abbrev S64 : Shape := ⟨1, ![64]⟩
abbrev S64x64 : Shape := ⟨2, ![64, 64]⟩
abbrev S67x64 : Shape := ⟨2, ![67, 64]⟩
abbrev S67x32 : Shape := ⟨2, ![67, 32]⟩
abbrev S32 : Shape := ⟨1, ![32]⟩
abbrev S32x32 : Shape := ⟨2, ![32, 32]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S1600000x3 : S_.BroadcastsInDim S1600000x3 (![] : Fin 0 → Fin S1600000x3.rank)
  reducesTo_S1600000x3_S_d0_1 : S1600000x3.ReducesTo [0, 1] S_
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S67x64 : S_.BroadcastsInDim S67x64 (![] : Fin 0 → Fin S67x64.rank)
  reducesTo_S67x64_S_d0_1 : S67x64.ReducesTo [0, 1] S_
  bcast_S_S67x32 : S_.BroadcastsInDim S67x32 (![] : Fin 0 → Fin S67x32.rank)
  reducesTo_S67x32_S_d0_1 : S67x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S32 .f32) (main_arg13 : FVec F S32x32 .f32) (main_arg14 : FVec F S32 .f32) (main_v48 : IVec S_ 1) (main_v49 : FVec F S67x32 .f32) (main_v50 : FVec F S67x32 .f32) : IVec S_ 1 :=
  let main_v51 : IVec S67x32 1 := cmpf .olt main_v49 main_v50
  let main_c_19 : IVec S_ 1 := constantI S_ 1 1#1
  let main_v52 : IVec S_ 1 := (fun x v => Host.reduce IntOp.andi x v reducesTo_S67x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_v63 main_v67

def fn_part2 {F : FTy → Type} [FloatOps F] (main_arg8 : FVec F S64 .f32) (main_arg9 : FVec F S64x64 .f32) (main_arg10 : FVec F S64 .f32) (main_arg11 : FVec F S67x32 .f32) (main_arg12 : FVec F S32 .f32) (main_arg13 : FVec F S32x32 .f32) (main_arg14 : FVec F S32 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S67x32 .f32 := Host.absf main_arg11
  let main_cst_18 : FVec F S_ .f32 := constant S_ .f32 0x7F800000#32
  let main_v50 : FVec F S67x32 .f32 := broadcastInDim S67x32 ![] bcast_S_S67x32 main_cst_18
  fn_part3 (F := F) main_arg12 main_arg13 main_arg14 main_v48 main_v49 main_v50

def fn_part1 {F : FTy → Type} [FloatOps F] (main_arg5 : FVec F S64x64 .f32) (main_arg6 : FVec F S64 .f32) (main_arg7 : FVec F S67x64 .f32) (main_arg8 : FVec F S64 .f32) (main_arg9 : FVec F S64x64 .f32) (main_arg10 : FVec F S64 .f32) (main_arg11 : FVec F S67x32 .f32) (main_arg12 : FVec F S32 .f32) (main_arg13 : FVec F S32x32 .f32) (main_arg14 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S67x64 .f32 := Host.absf main_arg7
  let main_cst_10 : FVec F S_ .f32 := constant S_ .f32 0x7F800000#32
  let main_v30 : FVec F S67x64 .f32 := broadcastInDim S67x64 ![] bcast_S_S67x64 main_cst_10
  let main_v31 : IVec S67x64 1 := cmpf .olt main_v29 main_v30
  let main_c_11 : IVec S_ 1 := constantI S_ 1 1#1
  let main_v32 : IVec S_ 1 := (fun x v => Host.reduce IntOp.andi x v reducesTo_S67x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x6 .f32) (main_arg1 : IVec S2x1600000 32) (main_arg2 : FVec F S1600000x3 .f32) (main_arg3 : FVec F S9x64 .f32) (main_arg4 : FVec F S64 .f32) (main_arg5 : FVec F S64x64 .f32) (main_arg6 : FVec F S64 .f32) (main_arg7 : FVec F S67x64 .f32) (main_arg8 : FVec F S64 .f32) (main_arg9 : FVec F S64x64 .f32) (main_arg10 : FVec F S64 .f32) (main_arg11 : FVec F S67x32 .f32) (main_arg12 : FVec F S32 .f32) (main_arg13 : FVec F S32x32 .f32) (main_arg14 : FVec F S32 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S1600000x3 .f32 := Host.absf main_arg2
  let main_cst_0 : FVec F S_ .f32 := constant S_ .f32 0x7F800000#32
  let main_v5 : FVec F S1600000x3 .f32 := broadcastInDim S1600000x3 ![] bcast_S_S1600000x3 main_cst_0
  let main_v6 : IVec S1600000x3 1 := cmpf .olt main_v4 main_v5
  let main_c_1 : IVec S_ 1 := constantI S_ 1 1#1
  let main_v7 : IVec S_ 1 := (fun x v => Host.reduce IntOp.andi x v reducesTo_S1600000x3_S_d0_1 h_S_) main_v6 main_c_1
  let main_v8 : IVec S_ 1 := andi main_v3 main_v7
  let main_v9 : FVec F S9x64 .f32 := Host.absf main_arg3
  let main_cst_2 : FVec F S_ .f32 := constant S_ .f32 0x7F800000#32
  let main_v10 : FVec F S9x64 .f32 := broadcastInDim S9x64 ![] bcast_S_S9x64 main_cst_2
  let main_v11 : IVec S9x64 1 := cmpf .olt main_v9 main_v10
  let main_c_3 : IVec S_ 1 := constantI S_ 1 1#1
  let main_v12 : IVec S_ 1 := (fun x v => Host.reduce IntOp.andi x v reducesTo_S9x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x6 : Shape := ⟨2, ![100000, 6]⟩
abbrev S2x1600000 : Shape := ⟨2, ![2, 1600000]⟩
abbrev S1600000x3 : Shape := ⟨2, ![1600000, 3]⟩
abbrev S9x64 : Shape := ⟨2, ![9, 64]⟩
abbrev S64 : Shape := ⟨1, ![64]⟩
abbrev S64x64 : Shape := ⟨2, ![64, 64]⟩
abbrev S67x64 : Shape := ⟨2, ![67, 64]⟩
abbrev S67x32 : Shape := ⟨2, ![67, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S1600000x9 : Shape := ⟨2, ![1600000, 9]⟩
abbrev S1x64 : Shape := ⟨2, ![1, 64]⟩
abbrev S1600000x64 : Shape := ⟨2, ![1600000, 64]⟩
abbrev S8000x9 : Shape := ⟨2, ![8000, 9]⟩
abbrev S8000x64 : Shape := ⟨2, ![8000, 64]⟩
abbrev S100000x64 : Shape := ⟨2, ![100000, 64]⟩
abbrev S100000x1 : Shape := ⟨2, ![100000, 1]⟩
abbrev S1600000x67 : Shape := ⟨2, ![1600000, 67]⟩
abbrev S8000x67 : Shape := ⟨2, ![8000, 67]⟩
abbrev S1x32 : Shape := ⟨2, ![1, 32]⟩
abbrev S1600000x32 : Shape := ⟨2, ![1600000, 32]⟩
abbrev S8000x32 : Shape := ⟨2, ![8000, 32]⟩
abbrev S100000x32 : Shape := ⟨2, ![100000, 32]⟩

abbrev nBuf : Space → Nat
  | .hbm => 109
  | .vmem => 24
  | .smem => 0
  | _ => 0

abbrev bufTy : (tb : Table) → Fin (tcTables nBuf tb) → BufTy
  | .hbm, ⟨0, _⟩ => ⟨S100000x6, .f32⟩
  | .hbm, ⟨1, _⟩ => ⟨S2x1600000, .i32⟩
  | .hbm, ⟨2, _⟩ => ⟨S1600000x3, .f32⟩
  | .hbm, ⟨3, _⟩ => ⟨S9x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S67x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S67x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x6, .f32⟩
  | .hbm, ⟨28, _⟩ => ⟨S1600000x9, .f32⟩
  | .hbm, ⟨29, _⟩ => ⟨S1x64, .f32⟩
  | .hbm, ⟨30, _⟩ => ⟨S1x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S_, .f32⟩
  | .hbm, ⟨37, _⟩ => ⟨S1600000x1, .f32⟩
  | .hbm, ⟨38, _⟩ => ⟨S_, .f32⟩
  | .hbm, ⟨39, _⟩ => ⟨S100000x1, .f32⟩
  | .hbm, ⟨40, _⟩ => ⟨S1600000x1, .i32⟩
  | .hbm, ⟨41, _⟩ => ⟨S100000x1, .f32⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S1600000x67, .f32⟩
  | .hbm, ⟨60, _⟩ => ⟨S1x64, .f32⟩
  | .hbm, ⟨61, _⟩ => ⟨S1x64, .f32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S1600000x1, .f32⟩
  | .hbm, ⟨69, _⟩ => ⟨S_, .f32⟩
  | .hbm, ⟨70, _⟩ => ⟨S100000x1, .f32⟩
  | .hbm, ⟨71, _⟩ => ⟨S1600000x1, .i32⟩
  | .hbm, ⟨72, _⟩ => ⟨S100000x1, .f32⟩
  | .hbm, ⟨73, _⟩ => ⟨S_, .f32⟩
  | .hbm, ⟨74, _⟩ => ⟨S100000x1, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S_, .f32⟩
  | .hbm, ⟨79, _⟩ => ⟨S100000x64, .f32⟩
  | .hbm, ⟨80, _⟩ => ⟨S100000x64, .f32⟩
  | .hbm, ⟨81, _⟩ => ⟨S_, .i32⟩
  | .hbm, ⟨82, _⟩ => ⟨S1600000, .i32⟩
  | .hbm, ⟨83, _⟩ => ⟨S1600000, .i1⟩
  | .hbm, ⟨84, _⟩ => ⟨S_, .i32⟩
  | .hbm, ⟨85, _⟩ => ⟨S1600000, .i32⟩
  | .hbm, ⟨86, _⟩ => ⟨S1600000, .i32⟩
  | .hbm, ⟨87, _⟩ => ⟨S1600000, .i32⟩
  | .hbm, ⟨88, _⟩ => ⟨S1600000x1, .i32⟩
  | .hbm, ⟨89, _⟩ => ⟨S1600000x64, .f32⟩
  | .hbm, ⟨90, _⟩ => ⟨S1600000x67, .f32⟩
  | .hbm, ⟨91, _⟩ => ⟨S1x32, .f32⟩
  | .hbm, ⟨92, _⟩ => ⟨S1x32, .f32⟩
  | .hbm, ⟨93, _⟩ => ⟨S1600000x32, .f32⟩
  | .hbm, ⟨94, _⟩ => ⟨S_, .f32⟩
  | .hbm, ⟨95, _⟩ => ⟨S100000x32, .f32⟩
  | .hbm, ⟨96, _⟩ => ⟨S1600000x1, .i32⟩
  | .hbm, ⟨97, _⟩ => ⟨S100000x32, .f32⟩
  | .hbm, ⟨98, _⟩ => ⟨S_, .f32⟩
  | .hbm, ⟨99, _⟩ => ⟨S1600000x1, .f32⟩
  | .hbm, ⟨100, _⟩ => ⟨S_, .f32⟩
  | .hbm, ⟨101, _⟩ => ⟨S100000x1, .f32⟩
  | .hbm, ⟨102, _⟩ => ⟨S1600000x1, .i32⟩
  | .hbm, ⟨103, _⟩ => ⟨S100000x1, .f32⟩
  | .hbm, ⟨104, _⟩ => ⟨S_, .f32⟩
  | .hbm, ⟨105, _⟩ => ⟨S100000x1, .f32⟩
  | .hbm, ⟨106, _⟩ => ⟨S100000x1, .f32⟩
  | .hbm, ⟨107, _⟩ => ⟨S100000x32, .f32⟩
  | .hbm, ⟨108, _⟩ => ⟨S100000x32, .f32⟩
  | .local _ .vmem, ⟨0, _⟩ => ⟨S8000x9, .f32⟩
  | .local _ .vmem, ⟨1, _⟩ => ⟨S8000x9, .f32⟩
  | .local _ .vmem, ⟨2, _⟩ => ⟨S9x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S8000x67, .f32⟩
  | .local _ .vmem, ⟨9, _⟩ => ⟨S8000x67, .f32⟩
  | .local _ .vmem, ⟨10, _⟩ => ⟨S67x64, .f32⟩
  | .local _ .vmem, ⟨11, _⟩ => ⟨S1x64, .f32⟩
  | .local _ .vmem, ⟨12, _⟩ => ⟨S64x64, .f32⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | .local _ .vmem, ⟨16, _⟩ => ⟨S8000x67, .f32⟩
  | .local _ .vmem, ⟨17, _⟩ => ⟨S8000x67, .f32⟩
  | .local _ .vmem, ⟨18, _⟩ => ⟨S67x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S8000x32, .f32⟩
  | .local _ .vmem, ⟨23, _⟩ => ⟨S8000x32, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call0_cst : Ref sig .tc := ⟨.hbm, 47, rfl⟩
abbrev main_call0_v0 : Ref sig .tc := ⟨.hbm, 48, rfl⟩
abbrev main_v26 : Ref sig .tc := ⟨.hbm, 49, rfl⟩
abbrev main_c_4 : Ref sig .tc := ⟨.hbm, 50, rfl⟩
abbrev main_v27 : Ref sig .tc := ⟨.hbm, 51, rfl⟩
abbrev main_v28 : Ref sig .tc := ⟨.hbm, 52, rfl⟩
abbrev main_c_5 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_cst : Ref sig .tc := ⟨.hbm, 78, rfl⟩
abbrev main_call1_v0 : Ref sig .tc := ⟨.hbm, 79, rfl⟩
abbrev main_v49 : Ref sig .tc := ⟨.hbm, 80, rfl⟩
abbrev main_c_10 : Ref sig .tc := ⟨.hbm, 81, rfl⟩
abbrev main_v50 : Ref sig .tc := ⟨.hbm, 82, rfl⟩
abbrev main_v51 : Ref sig .tc := ⟨.hbm, 83, rfl⟩
abbrev main_c_11 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_12 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_13 : Ref sig .tc := ⟨.hbm, 98, rfl⟩
abbrev main_v64 : Ref sig .tc := ⟨.hbm, 99, rfl⟩
abbrev main_cst_14 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_15 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x67 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S67x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x67 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S67x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x6_S1600000x3_S1600000x9_d1 : Shape.Concatenates [S1600000x6, S1600000x3] S1600000x9 1
  shapeCasts_S64_S1x64 : S64.ShapeCasts S1x64
  inb_S8000x9_S8000x9_0_0 : ∀ a, (![0, 0] : Fin 2 → Nat) a + S8000x9.size a ≤ S8000x9.size a
  h_S8000x9 : 0 < S8000x9.numel
  shapeCasts_S8000x9_S8000x9 : S8000x9.ShapeCasts S8000x9
  bitsLt_bf16_f32 : FTy.bits .bf16 < FTy.bits .f32
  inb_S9x64_S9x64_0_0 : ∀ a, (![0, 0] : Fin 2 → Nat) a + S9x64.size a ≤ S9x64.size a
  h_S9x64 : 0 < S9x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S1600000x64_S1600000x3_S1600000x67_d1 : Shape.Concatenates [S1600000x64, S1600000x3] S1600000x67 1
  inb_S8000x67_S8000x67_0_0 : ∀ a, (![0, 0] : Fin 2 → Nat) a + S8000x67.size a ≤ S8000x67.size a
  h_S8000x67 : 0 < S8000x67.numel
  shapeCasts_S8000x67_S8000x67 : S8000x67.ShapeCasts S8000x67
  inb_S67x64_S67x64_0_0 : ∀ a, (![0, 0] : Fin 2 → Nat) a + S67x64.size a ≤ S67x64.size a
  h_S67x64 : 0 < S67x64.numel
  shapeCasts_S32_S1x32 : S32.ShapeCasts S1x32
  inb_S67x32_S67x32_0_0 : ∀ a, (![0, 0] : Fin 2 → Nat) a + S67x32.size a ≤ S67x32.size a
  h_S67x32 : 0 < S67x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  inb_S8000x32_S8000x32_0_0 : ∀ a, (![0, 0] : Fin 2 → Nat) a + S8000x32.size a ≤ S8000x32.size a
  h_S8000x32 : 0 < S8000x32.numel
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  gather_S100000x6_S1600000x1_S1600000x6_1_0_n_n_0_1_16_wf : GatherDims.WF S100000x6 S1600000x1 S1600000x6 [1] [0] [] [0] [] 1 ![1, 6]
  dot_S8000x9_S9x64_S8000x64_1_0_0_1_n_n_wf : DotDims.WF S8000x9 S9x64 S8000x64 [1] [0] [0] [1] [] []
  dot_S8000x64_S64x64_S8000x64_1_0_0_1_n_n_wf : DotDims.WF S8000x64 S64x64 S8000x64 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  dot_S8000x67_S67x64_S8000x64_1_0_0_1_n_n_wf : DotDims.WF S8000x67 S67x64 S8000x64 [1] [0] [0] [1] [] []
  dot_S8000x67_S67x32_S8000x32_1_0_0_1_n_n_wf : DotDims.WF S8000x67 S67x32 S8000x32 [1] [0] [0] [1] [] []
  dot_S8000x32_S32x32_S8000x32_1_0_0_1_n_n_wf : DotDims.WF S8000x32 S32x32 S8000x32 [1] [0] [0] [1] [] []
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x9.size a ≤ S1600000x9.size a
  hwx0_0 : ∀ i : grid0.Coords, EltTy.bits .f32 = 32 ∨ (Rect.block (s := S1600000x9) S8000x9.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x64.size a ≤ S9x64.size a
  hwx0_1 : ∀ i : grid0.Coords, EltTy.bits .f32 = 32 ∨ (Rect.block (s := S9x64) S9x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S1600000x64.size a
  hwx0_5 : ∀ i : grid0.Coords, EltTy.bits .f32 = 32 ∨ (Rect.block (s := S1600000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x67.size a ≤ S1600000x67.size a
  hwx1_0 : ∀ i : grid1.Coords, EltTy.bits .f32 = 32 ∨ (Rect.block (s := S1600000x67) S8000x67.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S67x64.size a ≤ S67x64.size a
  hwx1_1 : ∀ i : grid1.Coords, EltTy.bits .f32 = 32 ∨ (Rect.block (s := S67x64) S67x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x64.size a ≤ S1600000x64.size a
  hwx1_5 : ∀ i : grid1.Coords, EltTy.bits .f32 = 32 ∨ (Rect.block (s := S1600000x64) S8000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x67.size a ≤ S1600000x67.size a
  hwx2_0 : ∀ i : grid2.Coords, EltTy.bits .f32 = 32 ∨ (Rect.block (s := S1600000x67) S8000x67.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S67x32.size a ≤ S67x32.size a
  hwx2_1 : ∀ i : grid2.Coords, EltTy.bits .f32 = 32 ∨ (Rect.block (s := S67x32) S67x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .f32 = 32 ∨ (Rect.block (s := S32x32) S32x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x32.size a ≤ S1600000x32.size a
  hwx2_5 : ∀ i : grid2.Coords, EltTy.bits .f32 = 32 ∨ (Rect.block (s := S1600000x32) S8000x32.size (cc2_transform_5 i) (hinb2_5 i)).WholeWords (EltTy.packing .f32)

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def dot_S8000x9_S9x64_S8000x64_1_0_0_1_n_n : DotDims S8000x9 S9x64 S8000x64 where
  lhsContracting := [1]
  rhsContracting := [0]
  lhsNonContracting := [0]
  rhsNonContracting := [1]
  lhsBatch := []
  rhsBatch := []
  wf := dot_S8000x9_S9x64_S8000x64_1_0_0_1_n_n_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x67_S67x64_S8000x64_1_0_0_1_n_n : DotDims S8000x67 S67x64 S8000x64 where
  lhsContracting := [1]
  rhsContracting := [0]
  lhsNonContracting := [0]
  rhsNonContracting := [1]
  lhsBatch := []
  rhsBatch := []
  wf := dot_S8000x67_S67x64_S8000x64_1_0_0_1_n_n_wf
def dot_S8000x67_S67x32_S8000x32_1_0_0_1_n_n : DotDims S8000x67 S67x32 S8000x32 where
  lhsContracting := [1]
  rhsContracting := [0]
  lhsNonContracting := [0]
  rhsNonContracting := [1]
  lhsBatch := []
  rhsBatch := []
  wf := dot_S8000x67_S67x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_v11) S8000x9.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S9x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S8000x67.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S67x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S8000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S8000x67.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S67x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v58) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v60) S8000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S1600000x3 : Shape := ⟨2, ![1600000, 3]⟩
abbrev S9x64 : Shape := ⟨2, ![9, 64]⟩
abbrev S64 : Shape := ⟨1, ![64]⟩
abbrev S64x64 : Shape := ⟨2, ![64, 64]⟩
abbrev S67x64 : Shape := ⟨2, ![67, 64]⟩
abbrev S67x32 : Shape := ⟨2, ![67, 32]⟩
abbrev S32 : Shape := ⟨1, ![32]⟩
abbrev S32x32 : Shape := ⟨2, ![32, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S1600000x9 : Shape := ⟨2, ![1600000, 9]⟩
abbrev S1600000x64 : Shape := ⟨2, ![1600000, 64]⟩
abbrev S1x64 : Shape := ⟨2, ![1, 64]⟩
abbrev S100000x64 : Shape := ⟨2, ![100000, 64]⟩
abbrev S100000x1 : Shape := ⟨2, ![100000, 1]⟩
abbrev S1600000x67 : Shape := ⟨2, ![1600000, 67]⟩
abbrev S1600000x32 : Shape := ⟨2, ![1600000, 32]⟩
abbrev S1x32 : Shape := ⟨2, ![1, 32]⟩
abbrev S100000x32 : Shape := ⟨2, ![100000, 32]⟩

abbrev nBuf : Space → Nat
  | .hbm => 133
  | .vmem => 0
  | .smem => 0
  | _ => 0

abbrev hbmTy0_0 (i : Nat) : BufTy := match i % 128 with
  | 0 => ⟨S100000x6, .f32⟩
  | 1 => ⟨S2x1600000, .i32⟩
  | 2 => ⟨S1600000x3, .f32⟩
  | 3 => ⟨S9x64, .f32⟩
  | 4 => ⟨S64, .f32⟩
  | 5 => ⟨S64x64, .f32⟩
  | 6 => ⟨S64, .f32⟩
  | 7 => ⟨S67x64, .f32⟩
  | 8 => ⟨S64, .f32⟩
  | 9 => ⟨S64x64, .f32⟩
  | 10 => ⟨S64, .f32⟩
  | 11 => ⟨S67x32, .f32⟩
  | 12 => ⟨S32, .f32⟩
  | 13 => ⟨S32x32, .f32⟩
  | 14 => ⟨S32, .f32⟩
  | 15 => ⟨S1x1600000, .i32⟩
  | 16 => ⟨S1600000, .i32⟩
  | 17 => ⟨S1x1600000, .i32⟩
  | 18 => ⟨S1600000, .i32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x6, .f32⟩
  | 28 => ⟨S1600000x9, .f32⟩
  | 29 => ⟨S1600000x64, .f32⟩
  | 30 => ⟨S1x64, .f32⟩
  | 31 => ⟨S1600000x64, .f32⟩
  | 32 => ⟨S1600000x64, .f32⟩
  | 33 => ⟨S_, .f32⟩
  | 34 => ⟨S1600000x64, .f32⟩
  | 35 => ⟨S1600000x64, .f32⟩
  | 36 => ⟨S1600000x64, .f32⟩
  | 37 => ⟨S1x64, .f32⟩
  | 38 => ⟨S1600000x64, .f32⟩
  | 39 => ⟨S1600000x64, .f32⟩
  | 40 => ⟨S_, .f32⟩
  | 41 => ⟨S100000x64, .f32⟩
  | 42 => ⟨S1600000x1, .i32⟩
  | 43 => ⟨S100000x64, .f32⟩
  | 44 => ⟨S_, .f32⟩
  | 45 => ⟨S1600000x1, .f32⟩
  | 46 => ⟨S_, .f32⟩
  | 47 => ⟨S100000x1, .f32⟩
  | 48 => ⟨S1600000x1, .i32⟩
  | 49 => ⟨S100000x1, .f32⟩
  | 50 => ⟨S_, .f32⟩
  | 51 => ⟨S100000x1, .f32⟩
  | 52 => ⟨S100000x1, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S1600000x67, .f32⟩
  | 68 => ⟨S1600000x64, .f32⟩
  | 69 => ⟨S1x64, .f32⟩
  | 70 => ⟨S1600000x64, .f32⟩
  | 71 => ⟨S1600000x64, .f32⟩
  | 72 => ⟨S_, .f32⟩
  | 73 => ⟨S1600000x64, .f32⟩
  | 74 => ⟨S1600000x64, .f32⟩
  | 75 => ⟨S1600000x64, .f32⟩
  | 76 => ⟨S1x64, .f32⟩
  | 77 => ⟨S1600000x64, .f32⟩
  | 78 => ⟨S1600000x64, .f32⟩
  | 79 => ⟨S_, .f32⟩
  | 80 => ⟨S100000x64, .f32⟩
  | 81 => ⟨S1600000x1, .i32⟩
  | 82 => ⟨S100000x64, .f32⟩
  | 83 => ⟨S_, .f32⟩
  | 84 => ⟨S1600000x1, .f32⟩
  | 85 => ⟨S_, .f32⟩
  | 86 => ⟨S100000x1, .f32⟩
  | 87 => ⟨S1600000x1, .i32⟩
  | 88 => ⟨S100000x1, .f32⟩
  | 89 => ⟨S_, .f32⟩
  | 90 => ⟨S100000x1, .f32⟩
  | 91 => ⟨S100000x1, .f32⟩
  | 92 => ⟨S100000x64, .f32⟩
  | 93 => ⟨S100000x64, .f32⟩
  | 94 => ⟨S_, .f32⟩
  | 95 => ⟨S100000x64, .f32⟩
  | 96 => ⟨S100000x64, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x64, .f32⟩
  | 106 => ⟨S1600000x67, .f32⟩
  | 107 => ⟨S1600000x32, .f32⟩
  | 108 => ⟨S1x32, .f32⟩
  | 109 => ⟨S1600000x32, .f32⟩
  | 110 => ⟨S1600000x32, .f32⟩
  | 111 => ⟨S_, .f32⟩
  | 112 => ⟨S1600000x32, .f32⟩
  | 113 => ⟨S1600000x32, .f32⟩
  | 114 => ⟨S1600000x32, .f32⟩
  | 115 => ⟨S1x32, .f32⟩
  | 116 => ⟨S1600000x32, .f32⟩
  | 117 => ⟨S1600000x32, .f32⟩
  | 118 => ⟨S_, .f32⟩
  | 119 => ⟨S100000x32, .f32⟩
  | 120 => ⟨S1600000x1, .i32⟩
  | 121 => ⟨S100000x32, .f32⟩
  | 122 => ⟨S_, .f32⟩
  | 123 => ⟨S1600000x1, .f32⟩
  | 124 => ⟨S_, .f32⟩
  | 125 => ⟨S100000x1, .f32⟩
  | 126 => ⟨S1600000x1, .i32⟩
  | 127 => ⟨S100000x1, .f32⟩
  | _ => ⟨S100000x6, .f32⟩

abbrev hbmTy0_1 (i : Nat) : BufTy := match i % 128 with
  | 0 => ⟨S_, .f32⟩
  | 1 => ⟨S100000x1, .f32⟩
  | 2 => ⟨S100000x1, .f32⟩
  | 3 => ⟨S100000x32, .f32⟩
  | 4 => ⟨S100000x32, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call0_cst : Ref sig .tc := ⟨.hbm, 33, rfl⟩
abbrev main_call0_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_call1_cst : Ref sig .tc := ⟨.hbm, 55, rfl⟩
abbrev main_call1_v0 : Ref sig .tc := ⟨.hbm, 56, rfl⟩
abbrev main_v32 : Ref sig .tc := ⟨.hbm, 57, rfl⟩
abbrev main_c_4 : Ref sig .tc := ⟨.hbm, 58, rfl⟩
abbrev main_v33 : Ref sig .tc := ⟨.hbm, 59, rfl⟩
abbrev main_v34 : Ref sig .tc := ⟨.hbm, 60, rfl⟩
abbrev main_c_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_call2_cst : Ref sig .tc := ⟨.hbm, 72, rfl⟩
abbrev main_call2_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_9 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_call3_cst : Ref sig .tc := ⟨.hbm, 94, rfl⟩
abbrev main_call3_v0 : Ref sig .tc := ⟨.hbm, 95, rfl⟩
abbrev main_v61 : Ref sig .tc := ⟨.hbm, 96, rfl⟩
abbrev main_c_10 : Ref sig .tc := ⟨.hbm, 97, rfl⟩
abbrev main_v62 : Ref sig .tc := ⟨.hbm, 98, rfl⟩
abbrev main_v63 : Ref sig .tc := ⟨.hbm, 99, rfl⟩
abbrev main_c_11 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_call4_cst : Ref sig .tc := ⟨.hbm, 111, rfl⟩
abbrev main_call4_v0 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_12 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_13 : Ref sig .tc := ⟨.hbm, 122, rfl⟩
abbrev main_v82 : Ref sig .tc := ⟨.hbm, 123, rfl⟩
abbrev main_cst_14 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_15 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x6_S1600000x3_S1600000x9_d1 : Shape.Concatenates [S1600000x6, S1600000x3] S1600000x9 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S1600000x64_S1600000x3_S1600000x67_d1 : Shape.Concatenates [S1600000x64, S1600000x3] S1600000x67 1
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x32 : S_.BroadcastsInDim S1600000x32 (![] : Fin 0 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  gather_S100000x6_S1600000x1_S1600000x6_1_0_n_n_0_1_16_wf : GatherDims.WF S100000x6 S1600000x1 S1600000x6 [1] [0] [] [0] [] 1 ![1, 6]
  dot_S1600000x9_S9x64_S1600000x64_1_0_0_1_n_n_wf : DotDims.WF S1600000x9 S9x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  dot_S1600000x67_S67x64_S1600000x64_1_0_0_1_n_n_wf : DotDims.WF S1600000x67 S67x64 S1600000x64 [1] [0] [0] [1] [] []
  dot_S1600000x67_S67x32_S1600000x32_1_0_0_1_n_n_wf : DotDims.WF S1600000x67 S67x32 S1600000x32 [1] [0] [0] [1] [] []
  dot_S1600000x32_S32x32_S1600000x32_1_0_0_1_n_n_wf : DotDims.WF S1600000x32 S32x32 S1600000x32 [1] [0] [0] [1] [] []
  scatter_S100000x32_S1600000x1_S1600000x32_1_0_0_1_wf : ScatterDims.WF S100000x32 S1600000x1 S1600000x32 [1] [0] [0] 1

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def dot_S1600000x9_S9x64_S1600000x64_1_0_0_1_n_n : DotDims S1600000x9 S9x64 S1600000x64 where
  lhsContracting := [1]
  rhsContracting := [0]
  lhsNonContracting := [0]
  rhsNonContracting := [1]
  lhsBatch := []
  rhsBatch := []
  wf := dot_S1600000x9_S9x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x67_S67x64_S1600000x64_1_0_0_1_n_n : DotDims S1600000x67 S67x64 S1600000x64 where
  lhsContracting := [1]
  rhsContracting := [0]
  lhsNonContracting := [0]
  rhsNonContracting := [1]
  lhsBatch := []
  rhsBatch := []
  wf := dot_S1600000x67_S67x64_S1600000x64_1_0_0_1_n_n_wf
def dot_S1600000x67_S67x32_S1600000x32_1_0_0_1_n_n : DotDims S1600000x67 S67x32 S1600000x32 where
  lhsContracting := [1]
  rhsContracting := [0]
  lhsNonContracting := [0]
  rhsNonContracting := [1]
  lhsBatch := []
  rhsBatch := []
  wf := dot_S1600000x67_S67x32_S1600000x32_1_0_0_1_n_n_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KernelRun.lean ====
/-
  THE KERNEL PROGRAM'S RUN, WITH ITS RESULT NAMED.

  The program is three launches of the edge MLP among stretches of host operations (gathers, concatenations,
  scatter-adds, divisions). Its run is the chain of those segments from the launch memory: after each segment every
  buffer of the core holds what the chain of contents `W0 … W11` says, a stretch of host operations folding its
  operations over the contents before it, a launch replacing its arrays by what its write-backs leave. So every weakly
  fair execution ends with the result buffer at `W11` of its reference and with the arguments as launched. What
  `W11` holds there, as a function of the arguments, is read in the modules that import this one.
-/
import proofs.«105351_j51694226375420_1_alg».proof.Proof.Gen.KernelIdeal.Frame

set_option maxRecDepth 16384

noncomputable section

namespace Cert.KernelIdeal.Valued

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v71) = W11 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v71 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c),
       (h c _ (mem_uc main_arg12 (by decide))).trans (W11_main_arg12 m ρ c),
       (h c _ (mem_uc main_arg13 (by decide))).trans (W11_main_arg13 m ρ c),
       (h c _ (mem_uc main_arg14 (by decide))).trans (W11_main_arg14 m ρ c)⟩)

end Cert.KernelIdeal.Valued

end
-- ==== Proof.LibPlainMatmul.lean ====
/-
  THE PLAIN MATRIX PRODUCT, READ AT AN INDEX.

  A contraction of `l : [A, K]` with `r : [K, B]` over the second axis of the left operand and the first of the right
  (no batch axis) — a `tpu.matmul` or a `stablehlo.dot_general` with those dimension numbers — sums over the dot's own
  contraction index. Re-indexed by the contracted coordinate, element `(p, q)` is `∑ k, l[p, k] · r[k, q]`.

  Proved here for every `A`, `K`, `B` and ANY dimension-number record with those fields:
  * `contraction_apply`: the sum over the record's contraction index is the sum over `k : Fin K`;
  * `matmul_zero_apply` / `dotGeneral_plain_apply`: a `tpu.matmul` from the zero accumulator and the host's `dot_general`
    at `(p, q)`, at the ideal values.
-/
import Idealize.ShloMosaic.PureOps.Ideal
import Idealize.ShloMosaic.PureOps.Ideal.Laws
import Idealize.ShloMosaic.Lib.ValueIdx

noncomputable section

open scoped BigOperators

namespace Cert.Lib.PlainMatmul

open Idealize.ShloMosaic Idealize.ShloMosaic.ValueIdx

variable {A K B : Nat}

/-- The plain product's dimension numbers as a record literal (its conditions `wf` arbitrary). -/
abbrev plainDot (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- On the left operand's row axis the dot's left index is the result's row. -/
theorem plainDot_lhs_zero (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).lhsIdx j c 0).val = (j 0).val := by
  unfold DotDims.lhsIdx
  rw [dif_neg (show ¬(0 : Fin 2) ∈ (plainDot A K B wf).lhsBatch from List.not_mem_nil),
    dif_pos (show (0 : Fin 2) ∈ (plainDot A K B wf).lhsNonContracting from List.mem_singleton.mpr rfl)]
  rfl

/-- On the right operand's column axis the dot's right index is the result's column. -/
theorem plainDot_rhs_one (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).rhsIdx j c 1).val = (j 1).val := by
  unfold DotDims.rhsIdx
  rw [dif_neg (show ¬(1 : Fin 2) ∈ (plainDot A K B wf).rhsBatch from List.not_mem_nil),
    dif_pos (show (1 : Fin 2) ∈ (plainDot A K B wf).rhsNonContracting from List.mem_singleton.mpr rfl)]
  rfl

/-- The contraction of the record literal at `(p, q)`, re-indexed by the contracted coordinate. -/
theorem plainDot_contraction (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (p : Fin A) (q : Fin B) :
    ∑ k : (plainDot A K B wf).contr.Idx, l ((plainDot A K B wf).lhsIdx (ix2 p q) k) * r ((plainDot A K B wf).rhsIdx (ix2 p q) k)
      = ∑ k : Fin K, l (ix2 p k) * r (ix2 k q) := by
  rw [← Equiv.sum_comp (contrEquiv1 (plainDot A K B wf) K rfl rfl).symm]
  refine Finset.sum_congr rfl fun k _ => ?_
  have hk := contrEquiv1_symm_val (plainDot A K B wf) K rfl rfl k
  have el : (plainDot A K B wf).lhsIdx (ix2 p q) ((contrEquiv1 (plainDot A K B wf) K rfl rfl).symm k) = ix2 p k :=
    funext fun a => Fin.ext (by
      match a with
      | ⟨0, _⟩ => exact plainDot_lhs_zero wf _ _
      | ⟨1, _⟩ => exact ((plainDot A K B wf).lhsIdx_val_of_single rfl (ix2 p q) _).trans hk)
  have er : (plainDot A K B wf).rhsIdx (ix2 p q) ((contrEquiv1 (plainDot A K B wf) K rfl rfl).symm k) = ix2 k q :=
    funext fun a => Fin.ext (by
      match a with
      | ⟨0, _⟩ => exact ((plainDot A K B wf).rhsIdx_val_of_single rfl (ix2 p q) _).trans hk
      | ⟨1, _⟩ => exact plainDot_rhs_one wf _ _)
  rw [el, er]

/-- THE CONTRACTION AT `(p, q)`, for any record with the plain product's fields: `∑ k, l[p, k] · r[k, q]`. -/
theorem contraction_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  exact plainDot_contraction wf l r p q

/-- A `tpu.matmul` from the zero accumulator at `(p, q)`, at the ideal values. -/
theorem matmul_zero_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ .f32) (r : FVec Ideal ⟨2, ![K, B]⟩ .f32) (p : Fin A) (q : Fin B) :
    FloatOps.matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (contraction_apply d h1 h2 h3 h4 h5 h6 l r p q)

/-- The host's `dot_general` at `(p, q)`, at the ideal values. -/
theorem dotGeneral_plain_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![A, K]⟩ .f32) (r : FVec Ideal ⟨2, ![K, B]⟩ .f32) (p : Fin A) (q : Fin B) :
    FloatOps.dotGeneral d prec sched l r (ix2 p q) = ∑ k : Fin K, l (ix2 p k) * r (ix2 k q) :=
  (Ideal.dotGeneral_apply d prec sched l r (ix2 p q)).trans (contraction_apply d h1 h2 h3 h4 h5 h6 l r p q)

end Cert.Lib.PlainMatmul

end
-- ==== Proof.MlpSpec.lean ====
/-
  THE EDGE MLP AT ONE EDGE AND ONE OUTPUT FEATURE.

  For a message matrix `msg : [E, K]`, weights `w1 : [K, H1]`, `w2 : [H1, H2]` and bias rows `r1 : [1, H1]`,
  `r2 : [1, H2]`, edge `e` and output feature `l`:

      mlpAt e l = (∑ k, max (∑ j, msg[e, j] · w1[j, k] + r1[0, k]) 0 · w2[k, l]) + r2[0, l]

  on the extended reals. Two programs compute it. A kernel body working on a block of `T` rows: two matrix products
  from the zero accumulator (their operands rounded to bf16, which at the ideal values changes nothing), the bias rows
  broadcast down the rows, the maximum with a zero splat. And the host: two `dot_general`s, the bias vectors broadcast
  first to a row and then down the rows, the maximum with a broadcast zero. Both are `mlpAt`, index by index, with the
  operations in the same order: no law of arithmetic is used beyond reading each operation at an index.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«105351_j51694226375420_1_alg».proof.Proof.LibPlainMatmul

noncomputable section

open scoped BigOperators

namespace Cert.EdgeMlp

open Idealize.ShloMosaic Idealize.ShloMosaic.ValueIdx Cert.Lib.PlainMatmul

variable {E T K H1 H2 : Nat}

/-- The MLP's output feature `l` of edge `e`. -/
def mlpAt (msg : (⟨2, ![E, K]⟩ : Shape).Idx → EReal) (w1 : (⟨2, ![K, H1]⟩ : Shape).Idx → EReal)
    (r1 : (⟨2, ![1, H1]⟩ : Shape).Idx → EReal) (w2 : (⟨2, ![H1, H2]⟩ : Shape).Idx → EReal)
    (r2 : (⟨2, ![1, H2]⟩ : Shape).Idx → EReal) (e : Fin E) (l : Fin H2) : EReal :=
  (∑ k : Fin H1, max ((∑ j : Fin K, msg (ix2 e j) * w1 (ix2 j k)) + r1 (ix2 (0 : Fin 1) k)) (Ideal.ofBits .f32 0x00000000#32)
      * w2 (ix2 k l)) + r2 (ix2 (0 : Fin 1) l)

/-- The MLP as a whole array. -/
def mlp (msg : (⟨2, ![E, K]⟩ : Shape).Idx → EReal) (w1 : (⟨2, ![K, H1]⟩ : Shape).Idx → EReal)
    (r1 : (⟨2, ![1, H1]⟩ : Shape).Idx → EReal) (w2 : (⟨2, ![H1, H2]⟩ : Shape).Idx → EReal)
    (r2 : (⟨2, ![1, H2]⟩ : Shape).Idx → EReal) : (⟨2, ![E, H2]⟩ : Shape).Idx → EReal :=
  fun i => mlpAt msg w1 r1 w2 r2 (i 0) (i 1)

/-- A matrix product from the zero accumulator at `(p, q)`, its operands stored in any two float formats. -/
theorem matmul_fmt_apply {A B : Nat} {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ φ₁) (r : FVec Ideal ⟨2, ![K, B]⟩ φ₂) (p : Fin A) (q : Fin B) :
    matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (contraction_apply d h1 h2 h3 h4 h5 h6 l r p q)

/-- THE KERNEL BODY's stored value at row `p` of its block and feature `l`: `mlpAt` of the loaded blocks. -/
theorem body_apply
    (D1 : DotDims ⟨2, ![T, K]⟩ ⟨2, ![K, H1]⟩ ⟨2, ![T, H1]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![T, H1]⟩ ⟨2, ![H1, H2]⟩ ⟨2, ![T, H2]⟩)
    (b1 : D2.lhsContracting = [1]) (b2 : D2.rhsContracting = [0]) (b3 : D2.lhsNonContracting = [0])
    (b4 : D2.rhsNonContracting = [1]) (b5 : D2.lhsBatch = []) (b6 : D2.rhsBatch = [])
    (hc0 : (⟨2, ![T, K]⟩ : Shape).ShapeCasts ⟨2, ![T, K]⟩)
    (hc1 : (⟨2, ![1, H1]⟩ : Shape).ShapeCasts ⟨2, ![1, H1]⟩) (hbt1 : (⟨2, ![1, H1]⟩ : Shape).Broadcasts ⟨2, ![T, H1]⟩)
    (hc2 : (⟨2, ![1, H2]⟩ : Shape).ShapeCasts ⟨2, ![1, H2]⟩) (hbt2 : (⟨2, ![1, H2]⟩ : Shape).Broadcasts ⟨2, ![T, H2]⟩)
    (hlt : FTy.bf16.bits < FTy.f32.bits)
    (x0 : FVec Ideal ⟨2, ![T, K]⟩ .f32) (x1 : FVec Ideal ⟨2, ![K, H1]⟩ .f32) (x2 : FVec Ideal ⟨2, ![1, H1]⟩ .f32)
    (x3 : FVec Ideal ⟨2, ![H1, H2]⟩ .f32) (x4 : FVec Ideal ⟨2, ![1, H2]⟩ .f32) (p : Fin T) (l : Fin H2) :
    addf (matmul D2 none
        (truncf .bf16 (maximumf (addf (matmul D1 none (truncf .bf16 (shapeCast ⟨2, ![T, K]⟩ x0 hc0) hlt) (truncf .bf16 x1 hlt)
              (constant (F := Ideal) ⟨2, ![T, H1]⟩ .f32 0x00000000#32))
            (broadcastTo ⟨2, ![T, H1]⟩ (shapeCast ⟨2, ![1, H1]⟩ x2 hc1) hbt1))
          (broadcast ⟨2, ![T, H1]⟩ (Scalar.ofBits (F := Ideal) .f32 0x00000000#32))) hlt)
        (truncf .bf16 x3 hlt) (constant (F := Ideal) ⟨2, ![T, H2]⟩ .f32 0x00000000#32))
      (broadcastTo ⟨2, ![T, H2]⟩ (shapeCast ⟨2, ![1, H2]⟩ x4 hc2) hbt2) (ix2 p l)
      = mlpAt x0 x1 x2 x3 x4 p l := by
  simp only [shapeCast_self]
  rw [addf_apply, matmul_fmt_apply D2 b1 b2 b3 b4 b5 b6, broadcastTo_1b_ab_apply]
  unfold mlpAt
  refine congrArg (· + x4 (ix2 (0 : Fin 1) l)) (Finset.sum_congr rfl fun k _ => ?_)
  rw [truncf_apply, truncf_apply, maximumf_apply, addf_apply, matmul_fmt_apply D1 a1 a2 a3 a4 a5 a6,
    broadcastTo_1b_ab_apply, broadcast_apply]
  simp only [truncf_apply]
  rfl

/-- A vector broadcast to a one-row matrix reads the vector. -/
theorem rowOf_apply {H : Nat} (hr : (⟨1, ![H]⟩ : Shape).BroadcastsInDim ⟨2, ![1, H]⟩ ![1])
    (b : (⟨1, ![H]⟩ : Shape).Idx → EReal) (u : Fin 1) (k : Fin H) :
    broadcastInDim ⟨2, ![1, H]⟩ ![1] hr b (ix2 u k) = b (ix1 k) := by
  refine broadcastInDim_apply ![1] hr b (ix2 u k) (ix1 k) fun a => ?_
  match a with
  | ⟨0, _⟩ =>
    show k.val = if H = 1 then 0 else k.val
    split
    · have := k.isLt; omega
    · rfl

/-- The row a reshape makes of a vector is the row a broadcast makes of it. -/
theorem rowOf_eq_cast {H : Nat} (hr : (⟨1, ![H]⟩ : Shape).BroadcastsInDim ⟨2, ![1, H]⟩ ![1])
    (hc : (⟨1, ![H]⟩ : Shape).ShapeCasts ⟨2, ![1, H]⟩) (b : (⟨1, ![H]⟩ : Shape).Idx → EReal) :
    broadcastInDim ⟨2, ![1, H]⟩ ![1] hr b = shapeCast ⟨2, ![1, H]⟩ b hc := by
  funext j
  obtain ⟨u, k, rfl⟩ : ∃ (u : Fin 1) (k : Fin H), j = ix2 u k := ⟨j 0, j 1, eq_ix2 j⟩
  rw [rowOf_apply, shapeCast_a_1a_apply]

/-- THE HOST's MLP at `(e, l)`: `mlpAt` of the arrays, the bias rows the vectors' broadcasts. -/
theorem host_apply
    (D1 : DotDims ⟨2, ![E, K]⟩ ⟨2, ![K, H1]⟩ ⟨2, ![E, H1]⟩)
    (a1 : D1.lhsContracting = [1]) (a2 : D1.rhsContracting = [0]) (a3 : D1.lhsNonContracting = [0])
    (a4 : D1.rhsNonContracting = [1]) (a5 : D1.lhsBatch = []) (a6 : D1.rhsBatch = [])
    (D2 : DotDims ⟨2, ![E, H1]⟩ ⟨2, ![H1, H2]⟩ ⟨2, ![E, H2]⟩)
    (b1 : D2.lhsContracting = [1]) (b2 : D2.rhsContracting = [0]) (b3 : D2.lhsNonContracting = [0])
    (b4 : D2.rhsNonContracting = [1]) (b5 : D2.lhsBatch = []) (b6 : D2.rhsBatch = [])
    (hr1 : (⟨1, ![H1]⟩ : Shape).BroadcastsInDim ⟨2, ![1, H1]⟩ ![1])
    (hd1 : (⟨2, ![1, H1]⟩ : Shape).BroadcastsInDim ⟨2, ![E, H1]⟩ ![0, 1])
    (hz : (⟨0, ![]⟩ : Shape).BroadcastsInDim ⟨2, ![E, H1]⟩ ![])
    (hr2 : (⟨1, ![H2]⟩ : Shape).BroadcastsInDim ⟨2, ![1, H2]⟩ ![1])
    (hd2 : (⟨2, ![1, H2]⟩ : Shape).BroadcastsInDim ⟨2, ![E, H2]⟩ ![0, 1])
    (msg : FVec Ideal ⟨2, ![E, K]⟩ .f32) (w1 : FVec Ideal ⟨2, ![K, H1]⟩ .f32) (v1 : FVec Ideal ⟨1, ![H1]⟩ .f32)
    (w2 : FVec Ideal ⟨2, ![H1, H2]⟩ .f32) (v2 : FVec Ideal ⟨1, ![H2]⟩ .f32) (e : Fin E) (l : Fin H2) :
    addf (Host.dotGeneral D2 none
        (maximumf (addf (Host.dotGeneral D1 none msg w1)
            (broadcastInDim ⟨2, ![E, H1]⟩ ![0, 1] hd1 (broadcastInDim ⟨2, ![1, H1]⟩ ![1] hr1 v1)))
          (broadcastInDim ⟨2, ![E, H1]⟩ ![] hz (constant (F := Ideal) ⟨0, ![]⟩ .f32 0x00000000#32))) w2)
      (broadcastInDim ⟨2, ![E, H2]⟩ ![0, 1] hd2 (broadcastInDim ⟨2, ![1, H2]⟩ ![1] hr2 v2)) (ix2 e l)
      = mlpAt msg w1 (broadcastInDim ⟨2, ![1, H1]⟩ ![1] hr1 v1) w2 (broadcastInDim ⟨2, ![1, H2]⟩ ![1] hr2 v2) e l := by
  simp only [Host.dotGeneral]
  rw [addf_apply, dotGeneral_plain_apply D2 b1 b2 b3 b4 b5 b6, broadcastInDim_oneRow_apply]
  unfold mlpAt
  refine congrArg (· + _) (Finset.sum_congr rfl fun k _ => ?_)
  rw [maximumf_apply, addf_apply, dotGeneral_plain_apply D1 a1 a2 a3 a4 a5 a6, broadcastInDim_oneRow_apply,
    broadcastInDim_scalar_apply]
  rfl

end Cert.EdgeMlp

end
-- ==== Proof.Launch0.lean ====
/-
  LAUNCH 0 OF THE EDGE MLP: WHAT ITS OUTPUT ARRAY HOLDS AFTER THE LAST WRITE-BACK.

  The launch walks the 1600000 edges in 200 blocks of 8000 rows. At grid point `t` the body reads rows
  `8000·t … 8000·t + 7999` of the message matrix [1600000, 9] and the whole of the two weight matrices and the two bias
  rows, and writes rows `8000·t … 8000·t + 7999` of the result [1600000, 64]. Row `p` of the block it writes is the
  MLP of row `p` of the block it read, and a row of the MLP depends on no other row of the messages: so block `t`
  of the result is block `t` of the whole-array MLP of the arrays as the launch finds them. The 200 blocks tile the
  rows, so after the launch the result array IS that whole-array MLP.
-/
import proofs.«105351_j51694226375420_1_alg».proof.Proof.Gen.KernelIdeal.Frame
import proofs.«105351_j51694226375420_1_alg».proof.Proof.MlpSpec
import Idealize.ShloMosaic.Lib.Pipeline.Value

set_option maxRecDepth 16384

noncomputable section

namespace Cert.KernelIdeal.Launch0

open Idealize.ShloMosaic Idealize.ShloMosaic.TcCoe Idealize.ShloMosaic.ValueIdx Idealize.SL.Sem
open Idealize.ShloMosaic.Pipeline (Dat)
open Cert.KernelIdeal Cert.KernelIdeal.Gen Cert.EdgeMlp

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at row `p` and feature `l` is the MLP of its loaded blocks there. -/
theorem stored_apply (x0 : Vec Ideal S8000x9 .f32) (x1 : Vec Ideal S9x64 .f32) (x2 : Vec Ideal S1x64 .f32)
    (x3 : Vec Ideal S64x64 .f32) (x4 : Vec Ideal S1x64 .f32) (p : Fin 8000) (l : Fin 64) :
    k0_pay1 x0 x1 x2 x3 x4 (ix2 p l) = mlpAt x0 x1 x2 x3 x4 p l := by
  unfold k0_pay1
  exact body_apply dot_S8000x9_S9x64_S8000x64_1_0_0_1_n_n rfl rfl rfl rfl rfl rfl dot_S8000x64_S64x64_S8000x64_1_0_0_1_n_n rfl rfl rfl rfl rfl rfl _ _ _ _ _ _ x0 x1 x2 x3 x4 p l

/-- The printed index maps over the grid: the message and result windows move one block per point along the rows,
    the weight and bias windows stay. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the message block at point `t` is row `8000·t + p` of the message matrix. -/
theorem msg_block_apply (c : Dev nD) (t : Fin cfg0.N) (p : Fin 8000) (j : Fin 9) (r : Fin 1600000)
    (hr : r.val = t.val * 8000 + p.val) :
    (iblk0 V c 0 t : Vec Ideal S8000x9 .f32) (ix2 p j) = (V c main_v11 : S1600000x9.Idx → EReal) (ix2 r j) := by
  obtain ⟨e0, e1, -⟩ := index_maps t
  unfold iblk0
  rw [View.read_apply]
  show V c main_v11 _ = V c main_v11 _
  refine congrArg (V c main_v11) (funext fun a => Fin.ext ?_)
  match a with
  | ⟨0, _⟩ => show win0_0.index t (0 : Fin 2) * 8000 + 1 * p.val = r.val; rw [e0, hr]; omega
  | ⟨1, _⟩ => show win0_0.index t (1 : Fin 2) * 9 + 1 * j.val = j.val; rw [e1]; omega

/-- The first weight matrix's block at every point is the matrix. -/
theorem w1_block_apply (c : Dev nD) (t : Fin cfg0.N) (j : Fin 9) (k : Fin 64) :
    (iblk0 V c 1 t : Vec Ideal S9x64 .f32) (ix2 j k) = (V c main_arg3 : S9x64.Idx → EReal) (ix2 j k) := by
  obtain ⟨-, -, e0, e1, -⟩ := index_maps t
  unfold iblk0
  rw [View.read_apply]
  show V c main_arg3 _ = V c main_arg3 _
  refine congrArg (V c main_arg3) (funext fun a => Fin.ext ?_)
  match a with
  | ⟨0, _⟩ => show win0_1.index t (0 : Fin 2) * 9 + 1 * j.val = j.val; rw [e0]; omega
  | ⟨1, _⟩ => show win0_1.index t (1 : Fin 2) * 64 + 1 * k.val = k.val; rw [e1]; omega

/-- The first bias row's block at every point is the row. -/
theorem r1_block_apply (c : Dev nD) (t : Fin cfg0.N) (u : Fin 1) (k : Fin 64) :
    (iblk0 V c 2 t : Vec Ideal S1x64 .f32) (ix2 u k) = (V c main_v12 : S1x64.Idx → EReal) (ix2 u k) := by
  obtain ⟨-, -, -, -, e0, e1, -⟩ := index_maps t
  unfold iblk0
  rw [View.read_apply]
  show V c main_v12 _ = V c main_v12 _
  refine congrArg (V c main_v12) (funext fun a => Fin.ext ?_)
  match a with
  | ⟨0, _⟩ => show win0_2.index t (0 : Fin 2) * 1 + 1 * u.val = u.val; rw [e0]; omega
  | ⟨1, _⟩ => show win0_2.index t (1 : Fin 2) * 64 + 1 * k.val = k.val; rw [e1]; omega

/-- The second weight matrix's block at every point is the matrix. -/
theorem w2_block_apply (c : Dev nD) (t : Fin cfg0.N) (k : Fin 64) (l : Fin 64) :
    (iblk0 V c 3 t : Vec Ideal S64x64 .f32) (ix2 k l) = (V c main_arg5 : S64x64.Idx → EReal) (ix2 k l) := by
  obtain ⟨-, -, -, -, -, -, e0, e1, -⟩ := index_maps t
  unfold iblk0
  rw [View.read_apply]
  show V c main_arg5 _ = V c main_arg5 _
  refine congrArg (V c main_arg5) (funext fun a => Fin.ext ?_)
  match a with
  | ⟨0, _⟩ => show win0_3.index t (0 : Fin 2) * 64 + 1 * k.val = k.val; rw [e0]; omega
  | ⟨1, _⟩ => show win0_3.index t (1 : Fin 2) * 64 + 1 * l.val = l.val; rw [e1]; omega

/-- The second bias row's block at every point is the row. -/
theorem r2_block_apply (c : Dev nD) (t : Fin cfg0.N) (u : Fin 1) (l : Fin 64) :
    (iblk0 V c 4 t : Vec Ideal S1x64 .f32) (ix2 u l) = (V c main_v13 : S1x64.Idx → EReal) (ix2 u l) := by
  obtain ⟨-, -, -, -, -, -, -, -, e0, e1, -⟩ := index_maps t
  unfold iblk0
  rw [View.read_apply]
  show V c main_v13 _ = V c main_v13 _
  refine congrArg (V c main_v13) (funext fun a => Fin.ext ?_)
  match a with
  | ⟨0, _⟩ => show win0_4.index t (0 : Fin 2) * 1 + 1 * u.val = u.val; rw [e0]; omega
  | ⟨1, _⟩ => show win0_4.index t (1 : Fin 2) * 64 + 1 * l.val = l.val; rw [e1]; omega

/-- The whole-array MLP of the arrays as the launch finds them. -/
abbrev result (c : Dev nD) : S1600000x64.Idx → EReal :=
  mlp (V c main_v11 : S1600000x9.Idx → EReal) (V c main_arg3 : S9x64.Idx → EReal) (V c main_v12 : S1x64.Idx → EReal)
    (V c main_arg5 : S64x64.Idx → EReal) (V c main_v13 : S1x64.Idx → EReal)

/-- The MLP of the blocks at point `t`, at row `p`, is the whole-array MLP at row `8000·t + p`. -/
theorem mlpAt_blocks (c : Dev nD) (t : Fin cfg0.N) (p : Fin 8000) (l : Fin 64) (r : Fin 1600000)
    (hr : r.val = t.val * 8000 + p.val) :
    mlpAt (iblk0 V c 0 t : Vec Ideal S8000x9 .f32) (iblk0 V c 1 t : Vec Ideal S9x64 .f32)
        (iblk0 V c 2 t : Vec Ideal S1x64 .f32) (iblk0 V c 3 t : Vec Ideal S64x64 .f32)
        (iblk0 V c 4 t : Vec Ideal S1x64 .f32) p l
      = mlpAt (V c main_v11 : S1600000x9.Idx → EReal) (V c main_arg3 : S9x64.Idx → EReal) (V c main_v12 : S1x64.Idx → EReal)
          (V c main_arg5 : S64x64.Idx → EReal) (V c main_v13 : S1x64.Idx → EReal) r l := by
  unfold mlpAt
  rw [r2_block_apply V c t 0 l]
  refine congrArg (· + _) (Finset.sum_congr rfl fun k _ => ?_)
  rw [r1_block_apply V c t 0 k, w2_block_apply V c t k l]
  refine congrArg (fun z => max (z + _) _ * _) (Finset.sum_congr rfl fun j _ => ?_)
  rw [msg_block_apply V c t p j r hr, w1_block_apply V c t j k]

/-- WHAT POINT `t` WRITES BACK is block `t` of the whole-array MLP. -/
theorem flushed_eq (c : Dev nD) (t : Fin cfg0.N) :
    (dat0 V c).flushed 5 t = ((cfg0.win 5).blk t).view.read (Elt Ideal) (result V c) := by
  obtain ⟨-, -, -, -, -, -, -, -, -, -, e0, e1⟩ := index_maps t
  show (cfg0.win 5).cut (grid0.coords t) ((dat0 V c).after 5 t) = _
  rw [after0_5]
  unfold out0_5
  rw [View.canon_unit_zero zero_offsets]
  simp only [View.ld_unit_zero (S := S8000x9) zero_offsets, View.ld_unit_zero (S := S9x64) zero_offsets,
    View.ld_unit_zero (S := S1x64) zero_offsets, View.ld_unit_zero (S := S64x64) zero_offsets,
    View.ld_unit_zero (S := S1x64) zero_offsets]
  funext y
  obtain ⟨p, l, rfl⟩ : ∃ (p : Fin 8000) (l : Fin 64), y = ix2 p l := ⟨y 0, y 1, @eq_ix2 8000 64 y⟩
  refine (stored_apply (iblk0 V c 0 t) (iblk0 V c 1 t) (iblk0 V c 2 t) (iblk0 V c 3 t) (iblk0 V c 4 t) p l).trans ?_
  rw [View.read_apply]
  have hl : (((cfg0.win 5).blk t).view.emb (ix2 p l)) 1 = l :=
    Fin.ext (by show win0_5.index t (1 : Fin 2) * 64 + 1 * l.val = l.val; rw [e1]; omega)
  show _ = mlpAt _ _ _ _ _ ((((cfg0.win 5).blk t).view.emb (ix2 p l)) 0) ((((cfg0.win 5).blk t).view.emb (ix2 p l)) 1)
  rw [hl]
  exact mlpAt_blocks V c t p l _ (by show win0_5.index t (0 : Fin 2) * 8000 + 1 * p.val = _; rw [e0]; omega)

/-- An index of the result array is in point `t`'s block iff its row is among the block's 8000. -/
theorem mem_block (t : Fin cfg0.N) (i : S1600000x64.Idx) :
    i ∈ ((cfg0.win 5).blk t).view.set ↔ ∀ a : Fin 2, win0_5.index t a * S8000x64.size a ≤ (i a).val
      ∧ (i a).val < win0_5.index t a * S8000x64.size a + S8000x64.size a := by
  show i ∈ ((View.whole main_v14).slice (win0_5.rect t)).set ↔ _
  rw [View.set_slice_whole, Rect.mem_set_unit]
  exact Iff.rfl

/-- Every row of the result lies in the block of the point `row / 8000`. -/
theorem covered (i : S1600000x64.Idx) :
    ∃ t : Fin cfg0.N, (cfg0.win 5).flush t = true ∧ i ∈ ((cfg0.win 5).blk t).view.set := by
  have hi0 : (i 0).val < 1600000 := (i 0).isLt
  have hi1 : (i 1).val < 64 := (i 1).isLt
  have hN : cfg0.N = 200 := N_0
  refine ⟨⟨(i 0).val / 8000, by rw [hN]; omega⟩, flush0_5 _, ?_⟩
  obtain ⟨-, -, -, -, -, -, -, -, -, -, e0, e1⟩ := index_maps ⟨(i 0).val / 8000, by rw [hN]; omega⟩
  rw [mem_block]
  intro a
  match a with
  | ⟨0, _⟩ =>
    show win0_5.index _ (0 : Fin 2) * 8000 ≤ (i 0).val ∧ (i 0).val < win0_5.index _ (0 : Fin 2) * 8000 + 8000
    rw [e0]; show (i 0).val / 8000 * 8000 ≤ (i 0).val ∧ (i 0).val < (i 0).val / 8000 * 8000 + 8000; omega
  | ⟨1, _⟩ =>
    show win0_5.index _ (1 : Fin 2) * 64 ≤ (i 1).val ∧ (i 1).val < win0_5.index _ (1 : Fin 2) * 64 + 64
    rw [e1]; omega

/-- THE RESULT ARRAY after the launch is the whole-array MLP of the arrays the launch found. -/
theorem final (c : Dev nD) : (dat0 V c).arrAt 5 cfg0.N = result V c :=
  (dat0 V c).arrAt_eq_of_cover 5 (result V c) (fun t _ => flushed_eq V c t) covered

end Cert.KernelIdeal.Launch0

end
-- ==== Proof.Launch1.lean ====
/-
  LAUNCH 1 OF THE EDGE MLP: WHAT ITS OUTPUT ARRAY HOLDS AFTER THE LAST WRITE-BACK.

  The launch walks the 1600000 edges in 200 blocks of 8000 rows. At grid point `t` the body reads rows
  `8000·t … 8000·t + 7999` of the message matrix [1600000, 67] and the whole of the two weight matrices and the two bias
  rows, and writes rows `8000·t … 8000·t + 7999` of the result [1600000, 64]. Row `p` of the block it writes is the
  MLP of row `p` of the block it read, and a row of the MLP depends on no other row of the messages: so block `t`
  of the result is block `t` of the whole-array MLP of the arrays as the launch finds them. The 200 blocks tile the
  rows, so after the launch the result array IS that whole-array MLP.
-/
import proofs.«105351_j51694226375420_1_alg».proof.Proof.Gen.KernelIdeal.Frame
import proofs.«105351_j51694226375420_1_alg».proof.Proof.MlpSpec
import Idealize.ShloMosaic.Lib.Pipeline.Value

set_option maxRecDepth 16384

noncomputable section

namespace Cert.KernelIdeal.Launch1

open Idealize.ShloMosaic Idealize.ShloMosaic.TcCoe Idealize.ShloMosaic.ValueIdx Idealize.SL.Sem
open Idealize.ShloMosaic.Pipeline (Dat)
open Cert.KernelIdeal Cert.KernelIdeal.Gen Cert.EdgeMlp

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at row `p` and feature `l` is the MLP of its loaded blocks there. -/
theorem stored_apply (x0 : Vec Ideal S8000x67 .f32) (x1 : Vec Ideal S67x64 .f32) (x2 : Vec Ideal S1x64 .f32)
    (x3 : Vec Ideal S64x64 .f32) (x4 : Vec Ideal S1x64 .f32) (p : Fin 8000) (l : Fin 64) :
    k1_pay1 x0 x1 x2 x3 x4 (ix2 p l) = mlpAt x0 x1 x2 x3 x4 p l := by
  unfold k1_pay1
  exact body_apply dot_S8000x67_S67x64_S8000x64_1_0_0_1_n_n rfl rfl rfl rfl rfl rfl dot_S8000x64_S64x64_S8000x64_1_0_0_1_n_n rfl rfl rfl rfl rfl rfl _ _ _ _ _ _ x0 x1 x2 x3 x4 p l

/-- The printed index maps over the grid: the message and result windows move one block per point along the rows,
    the weight and bias windows stay. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the message block at point `t` is row `8000·t + p` of the message matrix. -/
theorem msg_block_apply (c : Dev nD) (t : Fin cfg1.N) (p : Fin 8000) (j : Fin 67) (r : Fin 1600000)
    (hr : r.val = t.val * 8000 + p.val) :
    (iblk1 V c 0 t : Vec Ideal S8000x67 .f32) (ix2 p j) = (V c main_v34 : S1600000x67.Idx → EReal) (ix2 r j) := by
  obtain ⟨e0, e1, -⟩ := index_maps t
  unfold iblk1
  rw [View.read_apply]
  show V c main_v34 _ = V c main_v34 _
  refine congrArg (V c main_v34) (funext fun a => Fin.ext ?_)
  match a with
  | ⟨0, _⟩ => show win1_0.index t (0 : Fin 2) * 8000 + 1 * p.val = r.val; rw [e0, hr]; omega
  | ⟨1, _⟩ => show win1_0.index t (1 : Fin 2) * 67 + 1 * j.val = j.val; rw [e1]; omega

/-- The first weight matrix's block at every point is the matrix. -/
theorem w1_block_apply (c : Dev nD) (t : Fin cfg1.N) (j : Fin 67) (k : Fin 64) :
    (iblk1 V c 1 t : Vec Ideal S67x64 .f32) (ix2 j k) = (V c main_arg7 : S67x64.Idx → EReal) (ix2 j k) := by
  obtain ⟨-, -, e0, e1, -⟩ := index_maps t
  unfold iblk1
  rw [View.read_apply]
  show V c main_arg7 _ = V c main_arg7 _
  refine congrArg (V c main_arg7) (funext fun a => Fin.ext ?_)
  match a with
  | ⟨0, _⟩ => show win1_1.index t (0 : Fin 2) * 67 + 1 * j.val = j.val; rw [e0]; omega
  | ⟨1, _⟩ => show win1_1.index t (1 : Fin 2) * 64 + 1 * k.val = k.val; rw [e1]; omega

/-- The first bias row's block at every point is the row. -/
theorem r1_block_apply (c : Dev nD) (t : Fin cfg1.N) (u : Fin 1) (k : Fin 64) :
    (iblk1 V c 2 t : Vec Ideal S1x64 .f32) (ix2 u k) = (V c main_v35 : S1x64.Idx → EReal) (ix2 u k) := by
  obtain ⟨-, -, -, -, e0, e1, -⟩ := index_maps t
  unfold iblk1
  rw [View.read_apply]
  show V c main_v35 _ = V c main_v35 _
  refine congrArg (V c main_v35) (funext fun a => Fin.ext ?_)
  match a with
  | ⟨0, _⟩ => show win1_2.index t (0 : Fin 2) * 1 + 1 * u.val = u.val; rw [e0]; omega
  | ⟨1, _⟩ => show win1_2.index t (1 : Fin 2) * 64 + 1 * k.val = k.val; rw [e1]; omega

/-- The second weight matrix's block at every point is the matrix. -/
theorem w2_block_apply (c : Dev nD) (t : Fin cfg1.N) (k : Fin 64) (l : Fin 64) :
    (iblk1 V c 3 t : Vec Ideal S64x64 .f32) (ix2 k l) = (V c main_arg9 : S64x64.Idx → EReal) (ix2 k l) := by
  obtain ⟨-, -, -, -, -, -, e0, e1, -⟩ := index_maps t
  unfold iblk1
  rw [View.read_apply]
  show V c main_arg9 _ = V c main_arg9 _
  refine congrArg (V c main_arg9) (funext fun a => Fin.ext ?_)
  match a with
  | ⟨0, _⟩ => show win1_3.index t (0 : Fin 2) * 64 + 1 * k.val = k.val; rw [e0]; omega
  | ⟨1, _⟩ => show win1_3.index t (1 : Fin 2) * 64 + 1 * l.val = l.val; rw [e1]; omega

/-- The second bias row's block at every point is the row. -/
theorem r2_block_apply (c : Dev nD) (t : Fin cfg1.N) (u : Fin 1) (l : Fin 64) :
    (iblk1 V c 4 t : Vec Ideal S1x64 .f32) (ix2 u l) = (V c main_v36 : S1x64.Idx → EReal) (ix2 u l) := by
  obtain ⟨-, -, -, -, -, -, -, -, e0, e1, -⟩ := index_maps t
  unfold iblk1
  rw [View.read_apply]
  show V c main_v36 _ = V c main_v36 _
  refine congrArg (V c main_v36) (funext fun a => Fin.ext ?_)
  match a with
  | ⟨0, _⟩ => show win1_4.index t (0 : Fin 2) * 1 + 1 * u.val = u.val; rw [e0]; omega
  | ⟨1, _⟩ => show win1_4.index t (1 : Fin 2) * 64 + 1 * l.val = l.val; rw [e1]; omega

/-- The whole-array MLP of the arrays as the launch finds them. -/
abbrev result (c : Dev nD) : S1600000x64.Idx → EReal :=
  mlp (V c main_v34 : S1600000x67.Idx → EReal) (V c main_arg7 : S67x64.Idx → EReal) (V c main_v35 : S1x64.Idx → EReal)
    (V c main_arg9 : S64x64.Idx → EReal) (V c main_v36 : S1x64.Idx → EReal)

/-- The MLP of the blocks at point `t`, at row `p`, is the whole-array MLP at row `8000·t + p`. -/
theorem mlpAt_blocks (c : Dev nD) (t : Fin cfg1.N) (p : Fin 8000) (l : Fin 64) (r : Fin 1600000)
    (hr : r.val = t.val * 8000 + p.val) :
    mlpAt (iblk1 V c 0 t : Vec Ideal S8000x67 .f32) (iblk1 V c 1 t : Vec Ideal S67x64 .f32)
        (iblk1 V c 2 t : Vec Ideal S1x64 .f32) (iblk1 V c 3 t : Vec Ideal S64x64 .f32)
        (iblk1 V c 4 t : Vec Ideal S1x64 .f32) p l
      = mlpAt (V c main_v34 : S1600000x67.Idx → EReal) (V c main_arg7 : S67x64.Idx → EReal) (V c main_v35 : S1x64.Idx → EReal)
          (V c main_arg9 : S64x64.Idx → EReal) (V c main_v36 : S1x64.Idx → EReal) r l := by
  unfold mlpAt
  rw [r2_block_apply V c t 0 l]
  refine congrArg (· + _) (Finset.sum_congr rfl fun k _ => ?_)
  rw [r1_block_apply V c t 0 k, w2_block_apply V c t k l]
  refine congrArg (fun z => max (z + _) _ * _) (Finset.sum_congr rfl fun j _ => ?_)
  rw [msg_block_apply V c t p j r hr, w1_block_apply V c t j k]

/-- WHAT POINT `t` WRITES BACK is block `t` of the whole-array MLP. -/
theorem flushed_eq (c : Dev nD) (t : Fin cfg1.N) :
    (dat1 V c).flushed 5 t = ((cfg1.win 5).blk t).view.read (Elt Ideal) (result V c) := by
  obtain ⟨-, -, -, -, -, -, -, -, -, -, e0, e1⟩ := index_maps t
  show (cfg1.win 5).cut (grid1.coords t) ((dat1 V c).after 5 t) = _
  rw [after1_5]
  unfold out1_5
  rw [View.canon_unit_zero zero_offsets]
  simp only [View.ld_unit_zero (S := S8000x67) zero_offsets, View.ld_unit_zero (S := S67x64) zero_offsets,
    View.ld_unit_zero (S := S1x64) zero_offsets, View.ld_unit_zero (S := S64x64) zero_offsets,
    View.ld_unit_zero (S := S1x64) zero_offsets]
  funext y
  obtain ⟨p, l, rfl⟩ : ∃ (p : Fin 8000) (l : Fin 64), y = ix2 p l := ⟨y 0, y 1, @eq_ix2 8000 64 y⟩
  refine (stored_apply (iblk1 V c 0 t) (iblk1 V c 1 t) (iblk1 V c 2 t) (iblk1 V c 3 t) (iblk1 V c 4 t) p l).trans ?_
  rw [View.read_apply]
  have hl : (((cfg1.win 5).blk t).view.emb (ix2 p l)) 1 = l :=
    Fin.ext (by show win1_5.index t (1 : Fin 2) * 64 + 1 * l.val = l.val; rw [e1]; omega)
  show _ = mlpAt _ _ _ _ _ ((((cfg1.win 5).blk t).view.emb (ix2 p l)) 0) ((((cfg1.win 5).blk t).view.emb (ix2 p l)) 1)
  rw [hl]
  exact mlpAt_blocks V c t p l _ (by show win1_5.index t (0 : Fin 2) * 8000 + 1 * p.val = _; rw [e0]; omega)

/-- An index of the result array is in point `t`'s block iff its row is among the block's 8000. -/
theorem mem_block (t : Fin cfg1.N) (i : S1600000x64.Idx) :
    i ∈ ((cfg1.win 5).blk t).view.set ↔ ∀ a : Fin 2, win1_5.index t a * S8000x64.size a ≤ (i a).val
      ∧ (i a).val < win1_5.index t a * S8000x64.size a + S8000x64.size a := by
  show i ∈ ((View.whole main_v37).slice (win1_5.rect t)).set ↔ _
  rw [View.set_slice_whole, Rect.mem_set_unit]
  exact Iff.rfl

/-- Every row of the result lies in the block of the point `row / 8000`. -/
theorem covered (i : S1600000x64.Idx) :
    ∃ t : Fin cfg1.N, (cfg1.win 5).flush t = true ∧ i ∈ ((cfg1.win 5).blk t).view.set := by
  have hi0 : (i 0).val < 1600000 := (i 0).isLt
  have hi1 : (i 1).val < 64 := (i 1).isLt
  have hN : cfg1.N = 200 := N_1
  refine ⟨⟨(i 0).val / 8000, by rw [hN]; omega⟩, flush1_5 _, ?_⟩
  obtain ⟨-, -, -, -, -, -, -, -, -, -, e0, e1⟩ := index_maps ⟨(i 0).val / 8000, by rw [hN]; omega⟩
  rw [mem_block]
  intro a
  match a with
  | ⟨0, _⟩ =>
    show win1_5.index _ (0 : Fin 2) * 8000 ≤ (i 0).val ∧ (i 0).val < win1_5.index _ (0 : Fin 2) * 8000 + 8000
    rw [e0]; show (i 0).val / 8000 * 8000 ≤ (i 0).val ∧ (i 0).val < (i 0).val / 8000 * 8000 + 8000; omega
  | ⟨1, _⟩ =>
    show win1_5.index _ (1 : Fin 2) * 64 ≤ (i 1).val ∧ (i 1).val < win1_5.index _ (1 : Fin 2) * 64 + 64
    rw [e1]; omega

/-- THE RESULT ARRAY after the launch is the whole-array MLP of the arrays the launch found. -/
theorem final (c : Dev nD) : (dat1 V c).arrAt 5 cfg1.N = result V c :=
  (dat1 V c).arrAt_eq_of_cover 5 (result V c) (fun t _ => flushed_eq V c t) covered

end Cert.KernelIdeal.Launch1

end
-- ==== Proof.Launch2.lean ====
/-
  LAUNCH 2 OF THE EDGE MLP: WHAT ITS OUTPUT ARRAY HOLDS AFTER THE LAST WRITE-BACK.

  The launch walks the 1600000 edges in 200 blocks of 8000 rows. At grid point `t` the body reads rows
  `8000·t … 8000·t + 7999` of the message matrix [1600000, 67] and the whole of the two weight matrices and the two bias
  rows, and writes rows `8000·t … 8000·t + 7999` of the result [1600000, 32]. Row `p` of the block it writes is the
  MLP of row `p` of the block it read, and a row of the MLP depends on no other row of the messages: so block `t`
  of the result is block `t` of the whole-array MLP of the arrays as the launch finds them. The 200 blocks tile the
  rows, so after the launch the result array IS that whole-array MLP.
-/
import proofs.«105351_j51694226375420_1_alg».proof.Proof.Gen.KernelIdeal.Frame
import proofs.«105351_j51694226375420_1_alg».proof.Proof.MlpSpec
import Idealize.ShloMosaic.Lib.Pipeline.Value

set_option maxRecDepth 16384

noncomputable section

namespace Cert.KernelIdeal.Launch2

open Idealize.ShloMosaic Idealize.ShloMosaic.TcCoe Idealize.ShloMosaic.ValueIdx Idealize.SL.Sem
open Idealize.ShloMosaic.Pipeline (Dat)
open Cert.KernelIdeal Cert.KernelIdeal.Gen Cert.EdgeMlp

variable (V : (c : Dev nD) → (b : Ref sig .tc) → Buf (Elt Ideal) ((c : Thread nD τ).loc b))

theorem zero_offsets : (![0, 0] : Fin 2 → Nat) = fun _ => 0 := funext fun a => by fin_cases a <;> rfl

/-- The body's stored value at row `p` and feature `l` is the MLP of its loaded blocks there. -/
theorem stored_apply (x0 : Vec Ideal S8000x67 .f32) (x1 : Vec Ideal S67x32 .f32) (x2 : Vec Ideal S1x32 .f32)
    (x3 : Vec Ideal S32x32 .f32) (x4 : Vec Ideal S1x32 .f32) (p : Fin 8000) (l : Fin 32) :
    k2_pay1 x0 x1 x2 x3 x4 (ix2 p l) = mlpAt x0 x1 x2 x3 x4 p l := by
  unfold k2_pay1
  exact body_apply dot_S8000x67_S67x32_S8000x32_1_0_0_1_n_n rfl rfl rfl rfl rfl rfl dot_S8000x32_S32x32_S8000x32_1_0_0_1_n_n rfl rfl rfl rfl rfl rfl _ _ _ _ _ _ x0 x1 x2 x3 x4 p l

/-- The printed index maps over the grid: the message and result windows move one block per point along the rows,
    the weight and bias windows stay. -/
theorem index_maps : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the message block at point `t` is row `8000·t + p` of the message matrix. -/
theorem msg_block_apply (c : Dev nD) (t : Fin cfg2.N) (p : Fin 8000) (j : Fin 67) (r : Fin 1600000)
    (hr : r.val = t.val * 8000 + p.val) :
    (iblk2 V c 0 t : Vec Ideal S8000x67 .f32) (ix2 p j) = (V c main_v57 : S1600000x67.Idx → EReal) (ix2 r j) := by
  obtain ⟨e0, e1, -⟩ := index_maps t
  unfold iblk2
  rw [View.read_apply]
  show V c main_v57 _ = V c main_v57 _
  refine congrArg (V c main_v57) (funext fun a => Fin.ext ?_)
  match a with
  | ⟨0, _⟩ => show win2_0.index t (0 : Fin 2) * 8000 + 1 * p.val = r.val; rw [e0, hr]; omega
  | ⟨1, _⟩ => show win2_0.index t (1 : Fin 2) * 67 + 1 * j.val = j.val; rw [e1]; omega

/-- The first weight matrix's block at every point is the matrix. -/
theorem w1_block_apply (c : Dev nD) (t : Fin cfg2.N) (j : Fin 67) (k : Fin 32) :
    (iblk2 V c 1 t : Vec Ideal S67x32 .f32) (ix2 j k) = (V c main_arg11 : S67x32.Idx → EReal) (ix2 j k) := by
  obtain ⟨-, -, e0, e1, -⟩ := index_maps t
  unfold iblk2
  rw [View.read_apply]
  show V c main_arg11 _ = V c main_arg11 _
  refine congrArg (V c main_arg11) (funext fun a => Fin.ext ?_)
  match a with
  | ⟨0, _⟩ => show win2_1.index t (0 : Fin 2) * 67 + 1 * j.val = j.val; rw [e0]; omega
  | ⟨1, _⟩ => show win2_1.index t (1 : Fin 2) * 32 + 1 * k.val = k.val; rw [e1]; omega

/-- The first bias row's block at every point is the row. -/
theorem r1_block_apply (c : Dev nD) (t : Fin cfg2.N) (u : Fin 1) (k : Fin 32) :
    (iblk2 V c 2 t : Vec Ideal S1x32 .f32) (ix2 u k) = (V c main_v58 : S1x32.Idx → EReal) (ix2 u k) := by
  obtain ⟨-, -, -, -, e0, e1, -⟩ := index_maps t
  unfold iblk2
  rw [View.read_apply]
  show V c main_v58 _ = V c main_v58 _
  refine congrArg (V c main_v58) (funext fun a => Fin.ext ?_)
  match a with
  | ⟨0, _⟩ => show win2_2.index t (0 : Fin 2) * 1 + 1 * u.val = u.val; rw [e0]; omega
  | ⟨1, _⟩ => show win2_2.index t (1 : Fin 2) * 32 + 1 * k.val = k.val; rw [e1]; omega

/-- The second weight matrix's block at every point is the matrix. -/
theorem w2_block_apply (c : Dev nD) (t : Fin cfg2.N) (k : Fin 32) (l : Fin 32) :
    (iblk2 V c 3 t : Vec Ideal S32x32 .f32) (ix2 k l) = (V c main_arg13 : S32x32.Idx → EReal) (ix2 k l) := by
  obtain ⟨-, -, -, -, -, -, e0, e1, -⟩ := index_maps t
  unfold iblk2
  rw [View.read_apply]
  show V c main_arg13 _ = V c main_arg13 _
  refine congrArg (V c main_arg13) (funext fun a => Fin.ext ?_)
  match a with
  | ⟨0, _⟩ => show win2_3.index t (0 : Fin 2) * 32 + 1 * k.val = k.val; rw [e0]; omega
  | ⟨1, _⟩ => show win2_3.index t (1 : Fin 2) * 32 + 1 * l.val = l.val; rw [e1]; omega

/-- The second bias row's block at every point is the row. -/
theorem r2_block_apply (c : Dev nD) (t : Fin cfg2.N) (u : Fin 1) (l : Fin 32) :
    (iblk2 V c 4 t : Vec Ideal S1x32 .f32) (ix2 u l) = (V c main_v59 : S1x32.Idx → EReal) (ix2 u l) := by
  obtain ⟨-, -, -, -, -, -, -, -, e0, e1, -⟩ := index_maps t
  unfold iblk2
  rw [View.read_apply]
  show V c main_v59 _ = V c main_v59 _
  refine congrArg (V c main_v59) (funext fun a => Fin.ext ?_)
  match a with
  | ⟨0, _⟩ => show win2_4.index t (0 : Fin 2) * 1 + 1 * u.val = u.val; rw [e0]; omega
  | ⟨1, _⟩ => show win2_4.index t (1 : Fin 2) * 32 + 1 * l.val = l.val; rw [e1]; omega

/-- The whole-array MLP of the arrays as the launch finds them. -/
abbrev result (c : Dev nD) : S1600000x32.Idx → EReal :=
  mlp (V c main_v57 : S1600000x67.Idx → EReal) (V c main_arg11 : S67x32.Idx → EReal) (V c main_v58 : S1x32.Idx → EReal)
    (V c main_arg13 : S32x32.Idx → EReal) (V c main_v59 : S1x32.Idx → EReal)

/-- The MLP of the blocks at point `t`, at row `p`, is the whole-array MLP at row `8000·t + p`. -/
theorem mlpAt_blocks (c : Dev nD) (t : Fin cfg2.N) (p : Fin 8000) (l : Fin 32) (r : Fin 1600000)
    (hr : r.val = t.val * 8000 + p.val) :
    mlpAt (iblk2 V c 0 t : Vec Ideal S8000x67 .f32) (iblk2 V c 1 t : Vec Ideal S67x32 .f32)
        (iblk2 V c 2 t : Vec Ideal S1x32 .f32) (iblk2 V c 3 t : Vec Ideal S32x32 .f32)
        (iblk2 V c 4 t : Vec Ideal S1x32 .f32) p l
      = mlpAt (V c main_v57 : S1600000x67.Idx → EReal) (V c main_arg11 : S67x32.Idx → EReal) (V c main_v58 : S1x32.Idx → EReal)
          (V c main_arg13 : S32x32.Idx → EReal) (V c main_v59 : S1x32.Idx → EReal) r l := by
  unfold mlpAt
  rw [r2_block_apply V c t 0 l]
  refine congrArg (· + _) (Finset.sum_congr rfl fun k _ => ?_)
  rw [r1_block_apply V c t 0 k, w2_block_apply V c t k l]
  refine congrArg (fun z => max (z + _) _ * _) (Finset.sum_congr rfl fun j _ => ?_)
  rw [msg_block_apply V c t p j r hr, w1_block_apply V c t j k]

/-- WHAT POINT `t` WRITES BACK is block `t` of the whole-array MLP. -/
theorem flushed_eq (c : Dev nD) (t : Fin cfg2.N) :
    (dat2 V c).flushed 5 t = ((cfg2.win 5).blk t).view.read (Elt Ideal) (result V c) := by
  obtain ⟨-, -, -, -, -, -, -, -, -, -, e0, e1⟩ := index_maps t
  show (cfg2.win 5).cut (grid2.coords t) ((dat2 V c).after 5 t) = _
  rw [after2_5]
  unfold out2_5
  rw [View.canon_unit_zero zero_offsets]
  simp only [View.ld_unit_zero (S := S8000x67) zero_offsets, View.ld_unit_zero (S := S67x32) zero_offsets,
    View.ld_unit_zero (S := S1x32) zero_offsets, View.ld_unit_zero (S := S32x32) zero_offsets,
    View.ld_unit_zero (S := S1x32) zero_offsets]
  funext y
  obtain ⟨p, l, rfl⟩ : ∃ (p : Fin 8000) (l : Fin 32), y = ix2 p l := ⟨y 0, y 1, @eq_ix2 8000 32 y⟩
  refine (stored_apply (iblk2 V c 0 t) (iblk2 V c 1 t) (iblk2 V c 2 t) (iblk2 V c 3 t) (iblk2 V c 4 t) p l).trans ?_
  rw [View.read_apply]
  have hl : (((cfg2.win 5).blk t).view.emb (ix2 p l)) 1 = l :=
    Fin.ext (by show win2_5.index t (1 : Fin 2) * 32 + 1 * l.val = l.val; rw [e1]; omega)
  show _ = mlpAt _ _ _ _ _ ((((cfg2.win 5).blk t).view.emb (ix2 p l)) 0) ((((cfg2.win 5).blk t).view.emb (ix2 p l)) 1)
  rw [hl]
  exact mlpAt_blocks V c t p l _ (by show win2_5.index t (0 : Fin 2) * 8000 + 1 * p.val = _; rw [e0]; omega)

/-- An index of the result array is in point `t`'s block iff its row is among the block's 8000. -/
theorem mem_block (t : Fin cfg2.N) (i : S1600000x32.Idx) :
    i ∈ ((cfg2.win 5).blk t).view.set ↔ ∀ a : Fin 2, win2_5.index t a * S8000x32.size a ≤ (i a).val
      ∧ (i a).val < win2_5.index t a * S8000x32.size a + S8000x32.size a := by
  show i ∈ ((View.whole main_v60).slice (win2_5.rect t)).set ↔ _
  rw [View.set_slice_whole, Rect.mem_set_unit]
  exact Iff.rfl

/-- Every row of the result lies in the block of the point `row / 8000`. -/
theorem covered (i : S1600000x32.Idx) :
    ∃ t : Fin cfg2.N, (cfg2.win 5).flush t = true ∧ i ∈ ((cfg2.win 5).blk t).view.set := by
  have hi0 : (i 0).val < 1600000 := (i 0).isLt
  have hi1 : (i 1).val < 32 := (i 1).isLt
  have hN : cfg2.N = 200 := N_2
  refine ⟨⟨(i 0).val / 8000, by rw [hN]; omega⟩, flush2_5 _, ?_⟩
  obtain ⟨-, -, -, -, -, -, -, -, -, -, e0, e1⟩ := index_maps ⟨(i 0).val / 8000, by rw [hN]; omega⟩
  rw [mem_block]
  intro a
  match a with
  | ⟨0, _⟩ =>
    show win2_5.index _ (0 : Fin 2) * 8000 ≤ (i 0).val ∧ (i 0).val < win2_5.index _ (0 : Fin 2) * 8000 + 8000
    rw [e0]; show (i 0).val / 8000 * 8000 ≤ (i 0).val ∧ (i 0).val < (i 0).val / 8000 * 8000 + 8000; omega
  | ⟨1, _⟩ =>
    show win2_5.index _ (1 : Fin 2) * 32 ≤ (i 1).val ∧ (i 1).val < win2_5.index _ (1 : Fin 2) * 32 + 32
    rw [e1]; omega

/-- THE RESULT ARRAY after the launch is the whole-array MLP of the arrays the launch found. -/
theorem final (c : Dev nD) : (dat2 V c).arrAt 5 cfg2.N = result V c :=
  (dat2 V c).arrAt_eq_of_cover 5 (result V c) (fun t _ => flushed_eq V c t) covered

end Cert.KernelIdeal.Launch2

end
-- ==== Proof.Layers.lean ====
/-
  THE THREE MESSAGE-PASSING LAYERS AS WHOLE-ARRAY FUNCTIONS.

  One layer: every edge gathers the features of its source node (a negative index wrapped by the node count), appends
  its own three attributes, and passes the row through the MLP; every node then sums the MLP rows of the edges that
  point at it and divides by their number, at least one. Between layers the node features pass through `max · 0`.
  The steps other than the MLP are the host's own operations (slice, reshape, compare, select, gather, concatenate,
  scatter-add, maximum, divide), written here once as functions of arrays, so that a program that runs them is read
  as these functions applied and they are never opened again.
-/
import proofs.«105351_j51694226375420_1_alg».proof.KernelIdeal
import proofs.«105351_j51694226375420_1_alg».proof.Proof.Gen.KernelIdeal
import proofs.«105351_j51694226375420_1_alg».proof.Proof.MlpSpec

noncomputable section

namespace Cert.Layers

open Idealize.ShloMosaic Cert.KernelIdeal Cert.KernelIdeal.Facts₀ Cert.EdgeMlp

/-- Each edge's source node: row 0 of the edge list. -/
def srcVec (ei : IVec S2x1600000 32) : IVec S1600000 32 :=
  shapeCast S1600000 (extractStridedSlice S1x1600000 ![0, 0] ei slices_S2x1600000_S1x1600000_0_0) shapeCasts_S1x1600000_S1600000

/-- Each edge's target node: row 1 of the edge list. -/
def dstVec (ei : IVec S2x1600000 32) : IVec S1600000 32 :=
  shapeCast S1600000 (extractStridedSlice S1x1600000 ![1, 0] ei slices_S2x1600000_S1x1600000_1_0) shapeCasts_S1x1600000_S1600000

/-- The source nodes as a gather's index column, a negative index moved up by the node count. -/
def srcCol (sv : IVec S1600000 32) : IVec S1600000x1 32 :=
  broadcastInDim S1600000x1 ![0] bcast_S1600000_S1600000x1_0
    (select (cmpi .slt sv (broadcastInDim S1600000 ![] bcast_S_S1600000 (constantI S_ 32 0#32)))
      (addi sv (broadcastInDim S1600000 ![] bcast_S_S1600000 (constantI S_ 32 100000#32))) sv)

/-- The target nodes as a scatter's index column. -/
def dstCol (dv : IVec S1600000 32) : IVec S1600000x1 32 :=
  broadcastInDim S1600000x1 ![0] bcast_S1600000_S1600000x1_0 dv

/-- The first layer's messages: the source node's 6 features beside the edge's 3 attributes. -/
def messages6 (x : FVec Ideal S100000x6 .f32) (sv : IVec S1600000 32) (ea : FVec Ideal S1600000x3 .f32) :
    FVec Ideal S1600000x9 .f32 :=
  concatenate S1600000x9 1
    [⟨S1600000x6, Host.gather gather_S100000x6_S1600000x1_S1600000x6_1_0_n_n_0_1_16 x (srcCol sv)⟩, ⟨S1600000x3, ea⟩]
    concatenates_S1600000x6_S1600000x3_S1600000x9_d1

/-- A later layer's messages: the source node's 64 features beside the edge's 3 attributes. -/
def messages64 (h : FVec Ideal S100000x64 .f32) (sv : IVec S1600000 32) (ea : FVec Ideal S1600000x3 .f32) :
    FVec Ideal S1600000x67 .f32 :=
  concatenate S1600000x67 1
    [⟨S1600000x64, Host.gather gather_S100000x64_S1600000x1_S1600000x64_1_0_n_n_0_1_164 h (srcCol sv)⟩, ⟨S1600000x3, ea⟩]
    concatenates_S1600000x64_S1600000x3_S1600000x67_d1

/-- Each node's number of incoming edges, at least one. -/
def counts (dv : IVec S1600000 32) : FVec Ideal S100000x1 .f32 :=
  maximumf
    (Host.scatterAdd scatter_S100000x1_S1600000x1_S1600000x1_1_0_0_1
      (broadcastInDim S100000x1 ![] bcast_S_S100000x1 (constant S_ .f32 0x00000000#32)) (dstCol dv)
      (broadcastInDim S1600000x1 ![] bcast_S_S1600000x1 (constant S_ .f32 0x3F800000#32)))
    (broadcastInDim S100000x1 ![] bcast_S_S100000x1 (constant S_ .f32 0x3F800000#32))

/-- The mean over each node's incoming edges of 64 edge features. -/
def mean64 (dv : IVec S1600000 32) (h : FVec Ideal S1600000x64 .f32) : FVec Ideal S100000x64 .f32 :=
  Host.divf
    (Host.scatterAdd scatter_S100000x64_S1600000x1_S1600000x64_1_0_0_1
      (broadcastInDim S100000x64 ![] bcast_S_S100000x64 (constant S_ .f32 0x00000000#32)) (dstCol dv) h)
    (broadcastInDim S100000x64 ![0, 1] bcast_S100000x1_S100000x64_0_1 (counts dv))

/-- The mean over each node's incoming edges of 32 edge features. -/
def mean32 (dv : IVec S1600000 32) (h : FVec Ideal S1600000x32 .f32) : FVec Ideal S100000x32 .f32 :=
  Host.divf
    (Host.scatterAdd scatter_S100000x32_S1600000x1_S1600000x32_1_0_0_1
      (broadcastInDim S100000x32 ![] bcast_S_S100000x32 (constant S_ .f32 0x00000000#32)) (dstCol dv) h)
    (broadcastInDim S100000x32 ![0, 1] bcast_S100000x1_S100000x32_0_1 (counts dv))

/-- `max · 0` on the node features. -/
def relu64 (h : FVec Ideal S100000x64 .f32) : FVec Ideal S100000x64 .f32 :=
  maximumf h (broadcastInDim S100000x64 ![] bcast_S_S100000x64 (constant S_ .f32 0x00000000#32))

/-- A bias vector of 64 as the one-row matrix a reshape makes of it. -/
def row64 (b : FVec Ideal S64 .f32) : FVec Ideal S1x64 .f32 := shapeCast S1x64 b shapeCasts_S64_S1x64

/-- A bias vector of 32 as the one-row matrix a reshape makes of it. -/
def row32 (b : FVec Ideal S32 .f32) : FVec Ideal S1x32 .f32 := shapeCast S1x32 b shapeCasts_S32_S1x32

/-- THE NETWORK: three layers over edge-MLP functions `fA`, `fB`, `fC` of the messages. -/
def network (fA : FVec Ideal S1600000x9 .f32 → FVec Ideal S1600000x64 .f32)
    (fB : FVec Ideal S1600000x67 .f32 → FVec Ideal S1600000x64 .f32)
    (fC : FVec Ideal S1600000x67 .f32 → FVec Ideal S1600000x32 .f32)
    (x : FVec Ideal S100000x6 .f32) (ei : IVec S2x1600000 32) (ea : FVec Ideal S1600000x3 .f32) :
    FVec Ideal S100000x32 .f32 :=
  mean32 (dstVec ei) (fC (messages64 (relu64 (mean64 (dstVec ei) (fB (messages64 (relu64 (mean64 (dstVec ei)
    (fA (messages6 x (srcVec ei) ea)))) (srcVec ei) ea)))) (srcVec ei) ea))

end Cert.Layers

end
-- ==== Proof.KernelValue.lean ====
/-
  WHAT THE KERNEL PROGRAM'S RESULT BUFFER HOLDS: THE THREE-LAYER NETWORK OF THE ARGUMENTS.

  The chain of buffer contents `W0 … W11` is followed from the launch memory to the result. A stretch of host
  operations is read by applying its operations in order to the contents before it; a launch leaves in its output
  array the whole-array MLP of the arrays it found (the three launch modules) and touches nothing else. The buffers a
  later segment reads — the edge list's two rows, the edge attributes, the later layers' weights and biases — are
  written once or never, so they are carried through each segment unchanged. The result is the network with the MLP
  `mlp · w1 (row b1) w2 (row b2)` in each layer.
-/
import proofs.«105351_j51694226375420_1_alg».proof.Proof.Gen.KernelIdeal.Frame
import proofs.«105351_j51694226375420_1_alg».proof.Proof.Launch0
import proofs.«105351_j51694226375420_1_alg».proof.Proof.Launch1
import proofs.«105351_j51694226375420_1_alg».proof.Proof.Launch2
import proofs.«105351_j51694226375420_1_alg».proof.Proof.Layers
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.EdgeMlp Cert.Layers

variable (m : (ℓ : Loc nD τ sig) → Buf (Elt Ideal) ℓ) (ρ : Dev nD → PrngReg)

/-! ## The arguments as launched -/

abbrev A0 (c : Dev nD) : FVec Ideal S100000x6 .f32 := m ((c : Thread nD τ).loc main_arg0)
abbrev A1 (c : Dev nD) : IVec S2x1600000 32 := m ((c : Thread nD τ).loc main_arg1)
abbrev A2 (c : Dev nD) : FVec Ideal S1600000x3 .f32 := m ((c : Thread nD τ).loc main_arg2)
abbrev A3 (c : Dev nD) : FVec Ideal S9x64 .f32 := m ((c : Thread nD τ).loc main_arg3)
abbrev A4 (c : Dev nD) : FVec Ideal S64 .f32 := m ((c : Thread nD τ).loc main_arg4)
abbrev A5 (c : Dev nD) : FVec Ideal S64x64 .f32 := m ((c : Thread nD τ).loc main_arg5)
abbrev A6 (c : Dev nD) : FVec Ideal S64 .f32 := m ((c : Thread nD τ).loc main_arg6)
abbrev A7 (c : Dev nD) : FVec Ideal S67x64 .f32 := m ((c : Thread nD τ).loc main_arg7)
abbrev A8 (c : Dev nD) : FVec Ideal S64 .f32 := m ((c : Thread nD τ).loc main_arg8)
abbrev A9 (c : Dev nD) : FVec Ideal S64x64 .f32 := m ((c : Thread nD τ).loc main_arg9)
abbrev A10 (c : Dev nD) : FVec Ideal S64 .f32 := m ((c : Thread nD τ).loc main_arg10)
abbrev A11 (c : Dev nD) : FVec Ideal S67x32 .f32 := m ((c : Thread nD τ).loc main_arg11)
abbrev A12 (c : Dev nD) : FVec Ideal S32 .f32 := m ((c : Thread nD τ).loc main_arg12)
abbrev A13 (c : Dev nD) : FVec Ideal S32x32 .f32 := m ((c : Thread nD τ).loc main_arg13)
abbrev A14 (c : Dev nD) : FVec Ideal S32 .f32 := m ((c : Thread nD τ).loc main_arg14)

/-- The edge MLP of each layer as a function of the messages. -/
abbrev mlpA (c : Dev nD) : FVec Ideal S1600000x9 .f32 → FVec Ideal S1600000x64 .f32 :=
  fun msg => mlp msg (A3 m c) (row64 (A4 m c)) (A5 m c) (row64 (A6 m c))
abbrev mlpB (c : Dev nD) : FVec Ideal S1600000x67 .f32 → FVec Ideal S1600000x64 .f32 :=
  fun msg => mlp msg (A7 m c) (row64 (A8 m c)) (A9 m c) (row64 (A10 m c))
abbrev mlpC (c : Dev nD) : FVec Ideal S1600000x67 .f32 → FVec Ideal S1600000x32 .f32 :=
  fun msg => mlp msg (A11 m c) (row32 (A12 m c)) (A13 m c) (row32 (A14 m c))

/-- The node features after the first and after the second layer, and the messages of each layer. -/
abbrev msgs0 (c : Dev nD) : FVec Ideal S1600000x9 .f32 := messages6 (A0 m c) (srcVec (A1 m c)) (A2 m c)
abbrev feat1 (c : Dev nD) : FVec Ideal S100000x64 .f32 := relu64 (mean64 (dstVec (A1 m c)) (mlpA m c (msgs0 m c)))
abbrev msgs1 (c : Dev nD) : FVec Ideal S1600000x67 .f32 := messages64 (feat1 m c) (srcVec (A1 m c)) (A2 m c)
abbrev feat2 (c : Dev nD) : FVec Ideal S100000x64 .f32 := relu64 (mean64 (dstVec (A1 m c)) (mlpB m c (msgs1 m c)))
abbrev msgs2 (c : Dev nD) : FVec Ideal S1600000x67 .f32 := messages64 (feat2 m c) (srcVec (A1 m c)) (A2 m c)

/-! ## The stretches of host operations between the launches, over any contents `W` before them -/

/-- After the first launch: the mean of its output rows over each node's incoming edges. -/
theorem mean1 (W : Valuation τ sig (Elt Ideal)) :
    StableHlo.after hostOps1 W (Proc.devRef .tc main_v25)
      = mean64 (W (Proc.devRef .tc main_v3)) (W (Proc.devRef .tc main_v14)) := by
  after_results_simp
  all_goals rfl

/-- Then the clamp at zero. -/
theorem clamp1 (W : Valuation τ sig (Elt Ideal)) :
    StableHlo.after hostOps1_1 W (Proc.devRef .tc main_v26) = relu64 (W (Proc.devRef .tc main_v25)) := by
  after_results
  all_goals rfl

/-- Then the second launch's messages. -/
theorem gather1 (W : Valuation τ sig (Elt Ideal)) :
    StableHlo.after hostOps1_2 W (Proc.devRef .tc main_v34)
      = messages64 (W (Proc.devRef .tc main_v26)) (W (Proc.devRef .tc main_v1)) (W (Proc.devRef .tc main_arg2)) := by
  after_results
  all_goals rfl

theorem keep1a_main_v1 (W : Valuation τ sig (Elt Ideal)) :
    StableHlo.after hostOps1 W (Proc.devRef .tc main_v1) = W (Proc.devRef .tc main_v1) := by
  after_results
  all_goals rfl
theorem keep1b_main_v1 (W : Valuation τ sig (Elt Ideal)) :
    StableHlo.after hostOps1_1 W (Proc.devRef .tc main_v1) = W (Proc.devRef .tc main_v1) := by
  after_results
  all_goals rfl
theorem keep1a_main_arg2 (W : Valuation τ sig (Elt Ideal)) :
    StableHlo.after hostOps1 W (Proc.devRef .tc main_arg2) = W (Proc.devRef .tc main_arg2) := by
  after_results
  all_goals rfl
theorem keep1b_main_arg2 (W : Valuation τ sig (Elt Ideal)) :
    StableHlo.after hostOps1_1 W (Proc.devRef .tc main_arg2) = W (Proc.devRef .tc main_arg2) := by
  after_results
  all_goals rfl

/-- The second launch's messages from the contents at the first launch's exit. -/
theorem stretch1_msgs (W : Valuation τ sig (Elt Ideal)) (h : FVec Ideal S1600000x64 .f32) (sv dv : IVec S1600000 32) (ea : FVec Ideal S1600000x3 .f32)
    (h14 : W (Proc.devRef .tc main_v14) = h) (h3 : W (Proc.devRef .tc main_v3) = dv) (h1 : W (Proc.devRef .tc main_v1) = sv)
    (h2 : W (Proc.devRef .tc main_arg2) = ea) :
    StableHlo.after hostOps1_2 (StableHlo.after hostOps1_1 (StableHlo.after hostOps1 W)) (Proc.devRef .tc main_v34)
      = messages64 (relu64 (mean64 dv h)) sv ea := by
  subst h14 h3 h1 h2
  exact (gather1 _).trans (congr (congr (congrArg messages64 ((clamp1 _).trans (congrArg relu64 (mean1 W))))
    ((keep1b_main_v1 _).trans (keep1a_main_v1 W))) ((keep1b_main_arg2 _).trans (keep1a_main_arg2 W)))

/-- The second launch's bias rows: reshapes of the bias vectors. -/
theorem stretch1_row1 (W : Valuation τ sig (Elt Ideal)) (b : FVec Ideal S64 .f32) (hb : W (Proc.devRef .tc main_arg8) = b) :
    StableHlo.after hostOps1_2 (StableHlo.after hostOps1_1 (StableHlo.after hostOps1 W)) (Proc.devRef .tc main_v35) = row64 b := by
  subst hb
  after_results
  all_goals rfl
theorem stretch1_row2 (W : Valuation τ sig (Elt Ideal)) (b : FVec Ideal S64 .f32) (hb : W (Proc.devRef .tc main_arg10) = b) :
    StableHlo.after hostOps1_2 (StableHlo.after hostOps1_1 (StableHlo.after hostOps1 W)) (Proc.devRef .tc main_v36) = row64 b := by
  subst hb
  after_results
  all_goals rfl

theorem stretch1_main_arg7 (W : Valuation τ sig (Elt Ideal)) :
    StableHlo.after hostOps1_2 (StableHlo.after hostOps1_1 (StableHlo.after hostOps1 W)) (Proc.devRef .tc main_arg7) = W (Proc.devRef .tc main_arg7) := by
  after_results
  all_goals rfl
theorem stretch1_main_arg9 (W : Valuation τ sig (Elt Ideal)) :
    StableHlo.after hostOps1_2 (StableHlo.after hostOps1_1 (StableHlo.after hostOps1 W)) (Proc.devRef .tc main_arg9) = W (Proc.devRef .tc main_arg9) := by
  after_results
  all_goals rfl
theorem stretch1_main_v1 (W : Valuation τ sig (Elt Ideal)) :
    StableHlo.after hostOps1_2 (StableHlo.after hostOps1_1 (StableHlo.after hostOps1 W)) (Proc.devRef .tc main_v1) = W (Proc.devRef .tc main_v1) := by
  after_results
  all_goals rfl
theorem stretch1_main_v3 (W : Valuation τ sig (Elt Ideal)) :
    StableHlo.after hostOps1_2 (StableHlo.after hostOps1_1 (StableHlo.after hostOps1 W)) (Proc.devRef .tc main_v3) = W (Proc.devRef .tc main_v3) := by
  after_results
  all_goals rfl
theorem stretch1_main_arg2 (W : Valuation τ sig (Elt Ideal)) :
    StableHlo.after hostOps1_2 (StableHlo.after hostOps1_1 (StableHlo.after hostOps1 W)) (Proc.devRef .tc main_arg2) = W (Proc.devRef .tc main_arg2) := by
  after_results
  all_goals rfl
theorem stretch1_main_arg11 (W : Valuation τ sig (Elt Ideal)) :
    StableHlo.after hostOps1_2 (StableHlo.after hostOps1_1 (StableHlo.after hostOps1 W)) (Proc.devRef .tc main_arg11) = W (Proc.devRef .tc main_arg11) := by
  after_results
  all_goals rfl
theorem stretch1_main_arg12 (W : Valuation τ sig (Elt Ideal)) :
    StableHlo.after hostOps1_2 (StableHlo.after hostOps1_1 (StableHlo.after hostOps1 W)) (Proc.devRef .tc main_arg12) = W (Proc.devRef .tc main_arg12) := by
  after_results
  all_goals rfl
theorem stretch1_main_arg13 (W : Valuation τ sig (Elt Ideal)) :
    StableHlo.after hostOps1_2 (StableHlo.after hostOps1_1 (StableHlo.after hostOps1 W)) (Proc.devRef .tc main_arg13) = W (Proc.devRef .tc main_arg13) := by
  after_results
  all_goals rfl
theorem stretch1_main_arg14 (W : Valuation τ sig (Elt Ideal)) :
    StableHlo.after hostOps1_2 (StableHlo.after hostOps1_1 (StableHlo.after hostOps1 W)) (Proc.devRef .tc main_arg14) = W (Proc.devRef .tc main_arg14) := by
  after_results
  all_goals rfl

/-- After the second launch: the mean of its output rows over each node's incoming edges. -/
theorem mean2 (W : Valuation τ sig (Elt Ideal)) :
    StableHlo.after hostOps2 W (Proc.devRef .tc main_v48)
      = mean64 (W (Proc.devRef .tc main_v3)) (W (Proc.devRef .tc main_v37)) := by
  after_results_simp
  all_goals rfl

/-- Then the clamp at zero. -/
theorem clamp2 (W : Valuation τ sig (Elt Ideal)) :
    StableHlo.after hostOps2_1 W (Proc.devRef .tc main_v49) = relu64 (W (Proc.devRef .tc main_v48)) := by
  after_results
  all_goals rfl

/-- Then the third launch's messages. -/
theorem gather2 (W : Valuation τ sig (Elt Ideal)) :
    StableHlo.after hostOps2_2 W (Proc.devRef .tc main_v57)
      = messages64 (W (Proc.devRef .tc main_v49)) (W (Proc.devRef .tc main_v1)) (W (Proc.devRef .tc main_arg2)) := by
  after_results
  all_goals rfl

theorem keep2a_main_v1 (W : Valuation τ sig (Elt Ideal)) :
    StableHlo.after hostOps2 W (Proc.devRef .tc main_v1) = W (Proc.devRef .tc main_v1) := by
  after_results
  all_goals rfl
theorem keep2b_main_v1 (W : Valuation τ sig (Elt Ideal)) :
    StableHlo.after hostOps2_1 W (Proc.devRef .tc main_v1) = W (Proc.devRef .tc main_v1) := by
  after_results
  all_goals rfl
theorem keep2a_main_arg2 (W : Valuation τ sig (Elt Ideal)) :
    StableHlo.after hostOps2 W (Proc.devRef .tc main_arg2) = W (Proc.devRef .tc main_arg2) := by
  after_results
  all_goals rfl
theorem keep2b_main_arg2 (W : Valuation τ sig (Elt Ideal)) :
    StableHlo.after hostOps2_1 W (Proc.devRef .tc main_arg2) = W (Proc.devRef .tc main_arg2) := by
  after_results
  all_goals rfl

/-- The third launch's messages from the contents at the second launch's exit. -/
theorem stretch2_msgs (W : Valuation τ sig (Elt Ideal)) (h : FVec Ideal S1600000x64 .f32) (sv dv : IVec S1600000 32) (ea : FVec Ideal S1600000x3 .f32)
    (h37 : W (Proc.devRef .tc main_v37) = h) (h3 : W (Proc.devRef .tc main_v3) = dv) (h1 : W (Proc.devRef .tc main_v1) = sv)
    (h2 : W (Proc.devRef .tc main_arg2) = ea) :
    StableHlo.after hostOps2_2 (StableHlo.after hostOps2_1 (StableHlo.after hostOps2 W)) (Proc.devRef .tc main_v57)
      = messages64 (relu64 (mean64 dv h)) sv ea := by
  subst h37 h3 h1 h2
  exact (gather2 _).trans (congr (congr (congrArg messages64 ((clamp2 _).trans (congrArg relu64 (mean2 W))))
    ((keep2b_main_v1 _).trans (keep2a_main_v1 W))) ((keep2b_main_arg2 _).trans (keep2a_main_arg2 W)))

/-- The third launch's bias rows: reshapes of the bias vectors. -/
theorem stretch2_row1 (W : Valuation τ sig (Elt Ideal)) (b : FVec Ideal S32 .f32) (hb : W (Proc.devRef .tc main_arg12) = b) :
    StableHlo.after hostOps2_2 (StableHlo.after hostOps2_1 (StableHlo.after hostOps2 W)) (Proc.devRef .tc main_v58) = row32 b := by
  subst hb
  after_results
  all_goals rfl
theorem stretch2_row2 (W : Valuation τ sig (Elt Ideal)) (b : FVec Ideal S32 .f32) (hb : W (Proc.devRef .tc main_arg14) = b) :
    StableHlo.after hostOps2_2 (StableHlo.after hostOps2_1 (StableHlo.after hostOps2 W)) (Proc.devRef .tc main_v59) = row32 b := by
  subst hb
  after_results
  all_goals rfl

theorem stretch2_main_arg11 (W : Valuation τ sig (Elt Ideal)) :
    StableHlo.after hostOps2_2 (StableHlo.after hostOps2_1 (StableHlo.after hostOps2 W)) (Proc.devRef .tc main_arg11) = W (Proc.devRef .tc main_arg11) := by
  after_results
  all_goals rfl
theorem stretch2_main_arg13 (W : Valuation τ sig (Elt Ideal)) :
    StableHlo.after hostOps2_2 (StableHlo.after hostOps2_1 (StableHlo.after hostOps2 W)) (Proc.devRef .tc main_arg13) = W (Proc.devRef .tc main_arg13) := by
  after_results
  all_goals rfl
theorem stretch2_main_v3 (W : Valuation τ sig (Elt Ideal)) :
    StableHlo.after hostOps2_2 (StableHlo.after hostOps2_1 (StableHlo.after hostOps2 W)) (Proc.devRef .tc main_v3) = W (Proc.devRef .tc main_v3) := by
  after_results
  all_goals rfl

/-- The result: the mean of the third launch's output over each node's incoming edges. -/
theorem stretch3_result (W : Valuation τ sig (Elt Ideal)) (h : FVec Ideal S1600000x32 .f32) (dv : IVec S1600000 32)
    (h60 : W (Proc.devRef .tc main_v60) = h) (h3 : W (Proc.devRef .tc main_v3) = dv) :
    StableHlo.after hostOps3 W (Proc.devRef .tc main_v71) = mean32 dv h := by
  subst h60 h3
  after_results_simp
  all_goals rfl

/-! ## At the first launch's entry (after the first stretch of host operations) -/

theorem W1_main_v11 (c : Dev nD) : W1 m ρ c (Proc.devRef .tc main_v11) = msgs0 m c := by
  show StableHlo.after hostOps0 (W0 m ρ c) (Proc.devRef .tc main_v11) = _
  after_results
  all_goals rfl
theorem W1_main_arg3 (c : Dev nD) : W1 m ρ c (Proc.devRef .tc main_arg3) = A3 m c := by
  show StableHlo.after hostOps0 (W0 m ρ c) (Proc.devRef .tc main_arg3) = _
  after_results
  all_goals rfl
theorem W1_main_v12 (c : Dev nD) : W1 m ρ c (Proc.devRef .tc main_v12) = row64 (A4 m c) := by
  show StableHlo.after hostOps0 (W0 m ρ c) (Proc.devRef .tc main_v12) = _
  after_results
  all_goals rfl
theorem W1_main_arg5 (c : Dev nD) : W1 m ρ c (Proc.devRef .tc main_arg5) = A5 m c := by
  show StableHlo.after hostOps0 (W0 m ρ c) (Proc.devRef .tc main_arg5) = _
  after_results
  all_goals rfl
theorem W1_main_v13 (c : Dev nD) : W1 m ρ c (Proc.devRef .tc main_v13) = row64 (A6 m c) := by
  show StableHlo.after hostOps0 (W0 m ρ c) (Proc.devRef .tc main_v13) = _
  after_results
  all_goals rfl
theorem W1_main_v1 (c : Dev nD) : W1 m ρ c (Proc.devRef .tc main_v1) = srcVec (A1 m c) := by
  show StableHlo.after hostOps0 (W0 m ρ c) (Proc.devRef .tc main_v1) = _
  after_results
  all_goals rfl
theorem W1_main_v3 (c : Dev nD) : W1 m ρ c (Proc.devRef .tc main_v3) = dstVec (A1 m c) := by
  show StableHlo.after hostOps0 (W0 m ρ c) (Proc.devRef .tc main_v3) = _
  after_results
  all_goals rfl
theorem W1_main_arg2 (c : Dev nD) : W1 m ρ c (Proc.devRef .tc main_arg2) = A2 m c := by
  show StableHlo.after hostOps0 (W0 m ρ c) (Proc.devRef .tc main_arg2) = _
  after_results
  all_goals rfl
theorem W1_main_arg7 (c : Dev nD) : W1 m ρ c (Proc.devRef .tc main_arg7) = A7 m c := by
  show StableHlo.after hostOps0 (W0 m ρ c) (Proc.devRef .tc main_arg7) = _
  after_results
  all_goals rfl
theorem W1_main_arg8 (c : Dev nD) : W1 m ρ c (Proc.devRef .tc main_arg8) = A8 m c := by
  show StableHlo.after hostOps0 (W0 m ρ c) (Proc.devRef .tc main_arg8) = _
  after_results
  all_goals rfl
theorem W1_main_arg9 (c : Dev nD) : W1 m ρ c (Proc.devRef .tc main_arg9) = A9 m c := by
  show StableHlo.after hostOps0 (W0 m ρ c) (Proc.devRef .tc main_arg9) = _
  after_results
  all_goals rfl
theorem W1_main_arg10 (c : Dev nD) : W1 m ρ c (Proc.devRef .tc main_arg10) = A10 m c := by
  show StableHlo.after hostOps0 (W0 m ρ c) (Proc.devRef .tc main_arg10) = _
  after_results
  all_goals rfl
theorem W1_main_arg11 (c : Dev nD) : W1 m ρ c (Proc.devRef .tc main_arg11) = A11 m c := by
  show StableHlo.after hostOps0 (W0 m ρ c) (Proc.devRef .tc main_arg11) = _
  after_results
  all_goals rfl
theorem W1_main_arg12 (c : Dev nD) : W1 m ρ c (Proc.devRef .tc main_arg12) = A12 m c := by
  show StableHlo.after hostOps0 (W0 m ρ c) (Proc.devRef .tc main_arg12) = _
  after_results
  all_goals rfl
theorem W1_main_arg13 (c : Dev nD) : W1 m ρ c (Proc.devRef .tc main_arg13) = A13 m c := by
  show StableHlo.after hostOps0 (W0 m ρ c) (Proc.devRef .tc main_arg13) = _
  after_results
  all_goals rfl
theorem W1_main_arg14 (c : Dev nD) : W1 m ρ c (Proc.devRef .tc main_arg14) = A14 m c := by
  show StableHlo.after hostOps0 (W0 m ρ c) (Proc.devRef .tc main_arg14) = _
  after_results
  all_goals rfl

/-! ## At the first launch's exit -/

theorem W2_main_v14 (c : Dev nD) : W2 m ρ c (Proc.devRef .tc main_v14) = mlpA m c (msgs0 m c) := by
  refine (W2_arr m ρ c 5).trans ((Launch0.final (V1 m ρ) c).trans ?_)
  show mlp (W1 m ρ c (Proc.devRef .tc main_v11)) (W1 m ρ c (Proc.devRef .tc main_arg3)) (W1 m ρ c (Proc.devRef .tc main_v12))
    (W1 m ρ c (Proc.devRef .tc main_arg5)) (W1 m ρ c (Proc.devRef .tc main_v13)) = _
  rw [W1_main_v11, W1_main_arg3, W1_main_v12, W1_main_arg5, W1_main_v13]
theorem W2_main_v1 (c : Dev nD) : W2 m ρ c (Proc.devRef .tc main_v1) = srcVec (A1 m c) :=
  (W2_of_ne m ρ c main_v1 (by decide)).trans (W1_main_v1 m ρ c)
theorem W2_main_v3 (c : Dev nD) : W2 m ρ c (Proc.devRef .tc main_v3) = dstVec (A1 m c) :=
  (W2_of_ne m ρ c main_v3 (by decide)).trans (W1_main_v3 m ρ c)
theorem W2_main_arg2 (c : Dev nD) : W2 m ρ c (Proc.devRef .tc main_arg2) = A2 m c :=
  (W2_of_ne m ρ c main_arg2 (by decide)).trans (W1_main_arg2 m ρ c)
theorem W2_main_arg7 (c : Dev nD) : W2 m ρ c (Proc.devRef .tc main_arg7) = A7 m c :=
  (W2_of_ne m ρ c main_arg7 (by decide)).trans (W1_main_arg7 m ρ c)
theorem W2_main_arg8 (c : Dev nD) : W2 m ρ c (Proc.devRef .tc main_arg8) = A8 m c :=
  (W2_of_ne m ρ c main_arg8 (by decide)).trans (W1_main_arg8 m ρ c)
theorem W2_main_arg9 (c : Dev nD) : W2 m ρ c (Proc.devRef .tc main_arg9) = A9 m c :=
  (W2_of_ne m ρ c main_arg9 (by decide)).trans (W1_main_arg9 m ρ c)
theorem W2_main_arg10 (c : Dev nD) : W2 m ρ c (Proc.devRef .tc main_arg10) = A10 m c :=
  (W2_of_ne m ρ c main_arg10 (by decide)).trans (W1_main_arg10 m ρ c)
theorem W2_main_arg11 (c : Dev nD) : W2 m ρ c (Proc.devRef .tc main_arg11) = A11 m c :=
  (W2_of_ne m ρ c main_arg11 (by decide)).trans (W1_main_arg11 m ρ c)
theorem W2_main_arg12 (c : Dev nD) : W2 m ρ c (Proc.devRef .tc main_arg12) = A12 m c :=
  (W2_of_ne m ρ c main_arg12 (by decide)).trans (W1_main_arg12 m ρ c)
theorem W2_main_arg13 (c : Dev nD) : W2 m ρ c (Proc.devRef .tc main_arg13) = A13 m c :=
  (W2_of_ne m ρ c main_arg13 (by decide)).trans (W1_main_arg13 m ρ c)
theorem W2_main_arg14 (c : Dev nD) : W2 m ρ c (Proc.devRef .tc main_arg14) = A14 m c :=
  (W2_of_ne m ρ c main_arg14 (by decide)).trans (W1_main_arg14 m ρ c)

/-! ## At the second launch's entry -/

theorem W5_main_v34 (c : Dev nD) : W5 m ρ c (Proc.devRef .tc main_v34) = msgs1 m c :=
  stretch1_msgs (W2 m ρ c) _ _ _ _ (W2_main_v14 m ρ c) (W2_main_v3 m ρ c) (W2_main_v1 m ρ c) (W2_main_arg2 m ρ c)
theorem W5_main_v35 (c : Dev nD) : W5 m ρ c (Proc.devRef .tc main_v35) = row64 (A8 m c) :=
  stretch1_row1 (W2 m ρ c) _ (W2_main_arg8 m ρ c)
theorem W5_main_v36 (c : Dev nD) : W5 m ρ c (Proc.devRef .tc main_v36) = row64 (A10 m c) :=
  stretch1_row2 (W2 m ρ c) _ (W2_main_arg10 m ρ c)
theorem W5_main_arg7 (c : Dev nD) : W5 m ρ c (Proc.devRef .tc main_arg7) = A7 m c :=
  (stretch1_main_arg7 (W2 m ρ c)).trans (W2_main_arg7 m ρ c)
theorem W5_main_arg9 (c : Dev nD) : W5 m ρ c (Proc.devRef .tc main_arg9) = A9 m c :=
  (stretch1_main_arg9 (W2 m ρ c)).trans (W2_main_arg9 m ρ c)
theorem W5_main_v1 (c : Dev nD) : W5 m ρ c (Proc.devRef .tc main_v1) = srcVec (A1 m c) :=
  (stretch1_main_v1 (W2 m ρ c)).trans (W2_main_v1 m ρ c)
theorem W5_main_v3 (c : Dev nD) : W5 m ρ c (Proc.devRef .tc main_v3) = dstVec (A1 m c) :=
  (stretch1_main_v3 (W2 m ρ c)).trans (W2_main_v3 m ρ c)
theorem W5_main_arg2 (c : Dev nD) : W5 m ρ c (Proc.devRef .tc main_arg2) = A2 m c :=
  (stretch1_main_arg2 (W2 m ρ c)).trans (W2_main_arg2 m ρ c)
theorem W5_main_arg11 (c : Dev nD) : W5 m ρ c (Proc.devRef .tc main_arg11) = A11 m c :=
  (stretch1_main_arg11 (W2 m ρ c)).trans (W2_main_arg11 m ρ c)
theorem W5_main_arg12 (c : Dev nD) : W5 m ρ c (Proc.devRef .tc main_arg12) = A12 m c :=
  (stretch1_main_arg12 (W2 m ρ c)).trans (W2_main_arg12 m ρ c)
theorem W5_main_arg13 (c : Dev nD) : W5 m ρ c (Proc.devRef .tc main_arg13) = A13 m c :=
  (stretch1_main_arg13 (W2 m ρ c)).trans (W2_main_arg13 m ρ c)
theorem W5_main_arg14 (c : Dev nD) : W5 m ρ c (Proc.devRef .tc main_arg14) = A14 m c :=
  (stretch1_main_arg14 (W2 m ρ c)).trans (W2_main_arg14 m ρ c)

/-! ## At the second launch's exit -/

theorem W6_main_v37 (c : Dev nD) : W6 m ρ c (Proc.devRef .tc main_v37) = mlpB m c (msgs1 m c) := by
  refine (W6_arr m ρ c 5).trans ((Launch1.final (V5 m ρ) c).trans ?_)
  show mlp (W5 m ρ c (Proc.devRef .tc main_v34)) (W5 m ρ c (Proc.devRef .tc main_arg7)) (W5 m ρ c (Proc.devRef .tc main_v35))
    (W5 m ρ c (Proc.devRef .tc main_arg9)) (W5 m ρ c (Proc.devRef .tc main_v36)) = _
  rw [W5_main_v34, W5_main_arg7, W5_main_v35, W5_main_arg9, W5_main_v36]
theorem W6_main_v1 (c : Dev nD) : W6 m ρ c (Proc.devRef .tc main_v1) = srcVec (A1 m c) :=
  (W6_of_ne m ρ c main_v1 (by decide)).trans (W5_main_v1 m ρ c)
theorem W6_main_v3 (c : Dev nD) : W6 m ρ c (Proc.devRef .tc main_v3) = dstVec (A1 m c) :=
  (W6_of_ne m ρ c main_v3 (by decide)).trans (W5_main_v3 m ρ c)
theorem W6_main_arg2 (c : Dev nD) : W6 m ρ c (Proc.devRef .tc main_arg2) = A2 m c :=
  (W6_of_ne m ρ c main_arg2 (by decide)).trans (W5_main_arg2 m ρ c)
theorem W6_main_arg11 (c : Dev nD) : W6 m ρ c (Proc.devRef .tc main_arg11) = A11 m c :=
  (W6_of_ne m ρ c main_arg11 (by decide)).trans (W5_main_arg11 m ρ c)
theorem W6_main_arg12 (c : Dev nD) : W6 m ρ c (Proc.devRef .tc main_arg12) = A12 m c :=
  (W6_of_ne m ρ c main_arg12 (by decide)).trans (W5_main_arg12 m ρ c)
theorem W6_main_arg13 (c : Dev nD) : W6 m ρ c (Proc.devRef .tc main_arg13) = A13 m c :=
  (W6_of_ne m ρ c main_arg13 (by decide)).trans (W5_main_arg13 m ρ c)
theorem W6_main_arg14 (c : Dev nD) : W6 m ρ c (Proc.devRef .tc main_arg14) = A14 m c :=
  (W6_of_ne m ρ c main_arg14 (by decide)).trans (W5_main_arg14 m ρ c)

/-! ## At the third launch's entry -/

theorem W9_main_v57 (c : Dev nD) : W9 m ρ c (Proc.devRef .tc main_v57) = msgs2 m c :=
  stretch2_msgs (W6 m ρ c) _ _ _ _ (W6_main_v37 m ρ c) (W6_main_v3 m ρ c) (W6_main_v1 m ρ c) (W6_main_arg2 m ρ c)
theorem W9_main_v58 (c : Dev nD) : W9 m ρ c (Proc.devRef .tc main_v58) = row32 (A12 m c) :=
  stretch2_row1 (W6 m ρ c) _ (W6_main_arg12 m ρ c)
theorem W9_main_v59 (c : Dev nD) : W9 m ρ c (Proc.devRef .tc main_v59) = row32 (A14 m c) :=
  stretch2_row2 (W6 m ρ c) _ (W6_main_arg14 m ρ c)
theorem W9_main_arg11 (c : Dev nD) : W9 m ρ c (Proc.devRef .tc main_arg11) = A11 m c :=
  (stretch2_main_arg11 (W6 m ρ c)).trans (W6_main_arg11 m ρ c)
theorem W9_main_arg13 (c : Dev nD) : W9 m ρ c (Proc.devRef .tc main_arg13) = A13 m c :=
  (stretch2_main_arg13 (W6 m ρ c)).trans (W6_main_arg13 m ρ c)
theorem W9_main_v3 (c : Dev nD) : W9 m ρ c (Proc.devRef .tc main_v3) = dstVec (A1 m c) :=
  (stretch2_main_v3 (W6 m ρ c)).trans (W6_main_v3 m ρ c)

/-! ## At the third launch's exit, and the result -/

theorem W10_main_v60 (c : Dev nD) : W10 m ρ c (Proc.devRef .tc main_v60) = mlpC m c (msgs2 m c) := by
  refine (W10_arr m ρ c 5).trans ((Launch2.final (V9 m ρ) c).trans ?_)
  show mlp (W9 m ρ c (Proc.devRef .tc main_v57)) (W9 m ρ c (Proc.devRef .tc main_arg11)) (W9 m ρ c (Proc.devRef .tc main_v58))
    (W9 m ρ c (Proc.devRef .tc main_arg13)) (W9 m ρ c (Proc.devRef .tc main_v59)) = _
  rw [W9_main_v57, W9_main_arg11, W9_main_v58, W9_main_arg13, W9_main_v59]
theorem W10_main_v3 (c : Dev nD) : W10 m ρ c (Proc.devRef .tc main_v3) = dstVec (A1 m c) :=
  (W10_of_ne m ρ c main_v3 (by decide)).trans (W9_main_v3 m ρ c)

/-- THE RESULT BUFFER after the program: the three-layer network of the arguments. -/
theorem result_eq (c : Dev nD) :
    W11 m ρ c (Proc.devRef .tc main_v71) = network (mlpA m c) (mlpB m c) (mlpC m c) (A0 m c) (A1 m c) (A2 m c) :=
  stretch3_result (W10 m ρ c) _ _ (W10_main_v60 m ρ c) (W10_main_v3 m ρ c)

end Cert.KernelIdeal.Chain

end
-- ==== Proof.RefValue.lean ====
/-
  WHAT THE REFERENCE COMPUTES: THE SAME THREE-LAYER NETWORK, ITS EDGE MLP WRITTEN WITH THE HOST'S OPERATIONS.

  The reference's result is one term of host operations over the arguments. Its steps around the MLP are, operation
  for operation, the layer functions (gather, concatenate, scatter-add, divide, `max · 0`); the MLP itself is two
  `dot_general`s with the biases broadcast over the edges. Read at an index the host's MLP is `mlpAt`, the bias row
  the vector's broadcast, which is the row a reshape makes of it: so the host's MLP is the whole-array `mlp` with
  reshaped bias rows, the function the kernel's launches leave in their output arrays.
-/
import proofs.«105351_j51694226375420_1_alg».proof.Proof.Gen.ReferenceIdeal.Run
import proofs.«105351_j51694226375420_1_alg».proof.Proof.Layers
import proofs.«105351_j51694226375420_1_alg».proof.Proof.MlpSpec

set_option maxRecDepth 16384

noncomputable section

namespace Cert.ReferenceIdeal.Net

open Idealize.ShloMosaic Idealize.ShloMosaic.TcCoe Idealize.ShloMosaic.ValueIdx Idealize.SL.Sem
open Cert.ReferenceIdeal Cert.ReferenceIdeal.Facts₀ Cert.EdgeMlp

/-- The first layer's MLP on the host. -/
def hostMlpA (w1 : FVec Ideal S9x64 .f32) (b1 : FVec Ideal S64 .f32) (w2 : FVec Ideal S64x64 .f32) (b2 : FVec Ideal S64 .f32)
    (msg : FVec Ideal S1600000x9 .f32) : FVec Ideal S1600000x64 .f32 :=
  addf (Host.dotGeneral dot_S1600000x64_S64x64_S1600000x64_1_0_0_1_n_n none
      (maximumf (addf (Host.dotGeneral dot_S1600000x9_S9x64_S1600000x64_1_0_0_1_n_n none msg w1)
          (broadcastInDim S1600000x64 ![0, 1] bcast_S1x64_S1600000x64_0_1 (broadcastInDim S1x64 ![1] bcast_S64_S1x64_1 b1)))
        (broadcastInDim S1600000x64 ![] bcast_S_S1600000x64 (constant S_ .f32 0x00000000#32))) w2)
    (broadcastInDim S1600000x64 ![0, 1] bcast_S1x64_S1600000x64_0_1 (broadcastInDim S1x64 ![1] bcast_S64_S1x64_1 b2))

/-- The second layer's MLP on the host. -/
def hostMlpB (w1 : FVec Ideal S67x64 .f32) (b1 : FVec Ideal S64 .f32) (w2 : FVec Ideal S64x64 .f32) (b2 : FVec Ideal S64 .f32)
    (msg : FVec Ideal S1600000x67 .f32) : FVec Ideal S1600000x64 .f32 :=
  addf (Host.dotGeneral dot_S1600000x64_S64x64_S1600000x64_1_0_0_1_n_n none
      (maximumf (addf (Host.dotGeneral dot_S1600000x67_S67x64_S1600000x64_1_0_0_1_n_n none msg w1)
          (broadcastInDim S1600000x64 ![0, 1] bcast_S1x64_S1600000x64_0_1 (broadcastInDim S1x64 ![1] bcast_S64_S1x64_1 b1)))
        (broadcastInDim S1600000x64 ![] bcast_S_S1600000x64 (constant S_ .f32 0x00000000#32))) w2)
    (broadcastInDim S1600000x64 ![0, 1] bcast_S1x64_S1600000x64_0_1 (broadcastInDim S1x64 ![1] bcast_S64_S1x64_1 b2))

/-- The third layer's MLP on the host. -/
def hostMlpC (w1 : FVec Ideal S67x32 .f32) (b1 : FVec Ideal S32 .f32) (w2 : FVec Ideal S32x32 .f32) (b2 : FVec Ideal S32 .f32)
    (msg : FVec Ideal S1600000x67 .f32) : FVec Ideal S1600000x32 .f32 :=
  addf (Host.dotGeneral dot_S1600000x32_S32x32_S1600000x32_1_0_0_1_n_n none
      (maximumf (addf (Host.dotGeneral dot_S1600000x67_S67x32_S1600000x32_1_0_0_1_n_n none msg w1)
          (broadcastInDim S1600000x32 ![0, 1] bcast_S1x32_S1600000x32_0_1 (broadcastInDim S1x32 ![1] bcast_S32_S1x32_1 b1)))
        (broadcastInDim S1600000x32 ![] bcast_S_S1600000x32 (constant S_ .f32 0x00000000#32))) w2)
    (broadcastInDim S1600000x32 ![0, 1] bcast_S1x32_S1600000x32_0_1 (broadcastInDim S1x32 ![1] bcast_S32_S1x32_1 b2))

/-- The host's first MLP is the whole-array MLP with reshaped bias rows. -/
theorem hostMlpA_eq (w1 : FVec Ideal S9x64 .f32) (b1 : FVec Ideal S64 .f32) (w2 : FVec Ideal S64x64 .f32) (b2 : FVec Ideal S64 .f32) :
    hostMlpA w1 b1 w2 b2 = fun msg => mlp msg w1 (Cert.Layers.row64 b1) w2 (Cert.Layers.row64 b2) := by
  funext msg i
  obtain ⟨e, l, rfl⟩ : ∃ (e : Fin 1600000) (l : Fin 64), i = ix2 e l := ⟨i 0, i 1, eq_ix2 i⟩
  unfold hostMlpA
  refine (host_apply dot_S1600000x9_S9x64_S1600000x64_1_0_0_1_n_n rfl rfl rfl rfl rfl rfl
    dot_S1600000x64_S64x64_S1600000x64_1_0_0_1_n_n rfl rfl rfl rfl rfl rfl _ _ _ _ _ msg w1 b1 w2 b2 e l).trans ?_
  rw [rowOf_eq_cast bcast_S64_S1x64_1 Cert.KernelIdeal.Facts₀.shapeCasts_S64_S1x64 b1,
    rowOf_eq_cast bcast_S64_S1x64_1 Cert.KernelIdeal.Facts₀.shapeCasts_S64_S1x64 b2]
  rfl

/-- The host's second MLP is the whole-array MLP with reshaped bias rows. -/
theorem hostMlpB_eq (w1 : FVec Ideal S67x64 .f32) (b1 : FVec Ideal S64 .f32) (w2 : FVec Ideal S64x64 .f32) (b2 : FVec Ideal S64 .f32) :
    hostMlpB w1 b1 w2 b2 = fun msg => mlp msg w1 (Cert.Layers.row64 b1) w2 (Cert.Layers.row64 b2) := by
  funext msg i
  obtain ⟨e, l, rfl⟩ : ∃ (e : Fin 1600000) (l : Fin 64), i = ix2 e l := ⟨i 0, i 1, eq_ix2 i⟩
  unfold hostMlpB
  refine (host_apply dot_S1600000x67_S67x64_S1600000x64_1_0_0_1_n_n rfl rfl rfl rfl rfl rfl
    dot_S1600000x64_S64x64_S1600000x64_1_0_0_1_n_n rfl rfl rfl rfl rfl rfl _ _ _ _ _ msg w1 b1 w2 b2 e l).trans ?_
  rw [rowOf_eq_cast bcast_S64_S1x64_1 Cert.KernelIdeal.Facts₀.shapeCasts_S64_S1x64 b1,
    rowOf_eq_cast bcast_S64_S1x64_1 Cert.KernelIdeal.Facts₀.shapeCasts_S64_S1x64 b2]
  rfl

/-- The host's third MLP is the whole-array MLP with reshaped bias rows. -/
theorem hostMlpC_eq (w1 : FVec Ideal S67x32 .f32) (b1 : FVec Ideal S32 .f32) (w2 : FVec Ideal S32x32 .f32) (b2 : FVec Ideal S32 .f32) :
    hostMlpC w1 b1 w2 b2 = fun msg => mlp msg w1 (Cert.Layers.row32 b1) w2 (Cert.Layers.row32 b2) := by
  funext msg i
  obtain ⟨e, l, rfl⟩ : ∃ (e : Fin 1600000) (l : Fin 32), i = ix2 e l := ⟨i 0, i 1, eq_ix2 i⟩
  unfold hostMlpC
  refine (host_apply dot_S1600000x67_S67x32_S1600000x32_1_0_0_1_n_n rfl rfl rfl rfl rfl rfl
    dot_S1600000x32_S32x32_S1600000x32_1_0_0_1_n_n rfl rfl rfl rfl rfl rfl _ _ _ _ _ msg w1 b1 w2 b2 e l).trans ?_
  rw [rowOf_eq_cast bcast_S32_S1x32_1 Cert.KernelIdeal.Facts₀.shapeCasts_S32_S1x32 b1,
    rowOf_eq_cast bcast_S32_S1x32_1 Cert.KernelIdeal.Facts₀.shapeCasts_S32_S1x32 b2]
  rfl

variable (m : (ℓ : Loc nD τ sig) → Buf (Elt Ideal) ℓ)

abbrev B0 (c : Dev nD) : S100000x6.Idx → EReal := m ((c.tc : Thread Cert.ReferenceIdeal.nD Cert.ReferenceIdeal.τ).loc Cert.ReferenceIdeal.main_arg0)
abbrev B1 (c : Dev nD) : IVec S2x1600000 32 := m ((c.tc : Thread Cert.ReferenceIdeal.nD Cert.ReferenceIdeal.τ).loc Cert.ReferenceIdeal.main_arg1)
abbrev B2 (c : Dev nD) : S1600000x3.Idx → EReal := m ((c.tc : Thread Cert.ReferenceIdeal.nD Cert.ReferenceIdeal.τ).loc Cert.ReferenceIdeal.main_arg2)
abbrev B3 (c : Dev nD) : S9x64.Idx → EReal := m ((c.tc : Thread Cert.ReferenceIdeal.nD Cert.ReferenceIdeal.τ).loc Cert.ReferenceIdeal.main_arg3)
abbrev B4 (c : Dev nD) : S64.Idx → EReal := m ((c.tc : Thread Cert.ReferenceIdeal.nD Cert.ReferenceIdeal.τ).loc Cert.ReferenceIdeal.main_arg4)
abbrev B5 (c : Dev nD) : S64x64.Idx → EReal := m ((c.tc : Thread Cert.ReferenceIdeal.nD Cert.ReferenceIdeal.τ).loc Cert.ReferenceIdeal.main_arg5)
abbrev B6 (c : Dev nD) : S64.Idx → EReal := m ((c.tc : Thread Cert.ReferenceIdeal.nD Cert.ReferenceIdeal.τ).loc Cert.ReferenceIdeal.main_arg6)
abbrev B7 (c : Dev nD) : S67x64.Idx → EReal := m ((c.tc : Thread Cert.ReferenceIdeal.nD Cert.ReferenceIdeal.τ).loc Cert.ReferenceIdeal.main_arg7)
abbrev B8 (c : Dev nD) : S64.Idx → EReal := m ((c.tc : Thread Cert.ReferenceIdeal.nD Cert.ReferenceIdeal.τ).loc Cert.ReferenceIdeal.main_arg8)
abbrev B9 (c : Dev nD) : S64x64.Idx → EReal := m ((c.tc : Thread Cert.ReferenceIdeal.nD Cert.ReferenceIdeal.τ).loc Cert.ReferenceIdeal.main_arg9)
abbrev B10 (c : Dev nD) : S64.Idx → EReal := m ((c.tc : Thread Cert.ReferenceIdeal.nD Cert.ReferenceIdeal.τ).loc Cert.ReferenceIdeal.main_arg10)
abbrev B11 (c : Dev nD) : S67x32.Idx → EReal := m ((c.tc : Thread Cert.ReferenceIdeal.nD Cert.ReferenceIdeal.τ).loc Cert.ReferenceIdeal.main_arg11)
abbrev B12 (c : Dev nD) : S32.Idx → EReal := m ((c.tc : Thread Cert.ReferenceIdeal.nD Cert.ReferenceIdeal.τ).loc Cert.ReferenceIdeal.main_arg12)
abbrev B13 (c : Dev nD) : S32x32.Idx → EReal := m ((c.tc : Thread Cert.ReferenceIdeal.nD Cert.ReferenceIdeal.τ).loc Cert.ReferenceIdeal.main_arg13)
abbrev B14 (c : Dev nD) : S32.Idx → EReal := m ((c.tc : Thread Cert.ReferenceIdeal.nD Cert.ReferenceIdeal.τ).loc Cert.ReferenceIdeal.main_arg14)

/-- THE REFERENCE'S RESULT is the network over the host's MLPs. -/
theorem res_eq (c : Dev nD) :
    Value.res_main_v89 (F := Ideal) m c
      = Cert.Layers.network (hostMlpA (B3 m c) (B4 m c) (B5 m c) (B6 m c)) (hostMlpB (B7 m c) (B8 m c) (B9 m c) (B10 m c))
          (hostMlpC (B11 m c) (B12 m c) (B13 m c) (B14 m c)) (B0 m c) (B1 m c) (B2 m c) := by
  unfold Value.res_main_v89
  rfl

/-- THE REFERENCE'S RESULT is the network with the whole-array MLP in each layer. -/
theorem res_network (c : Dev nD) :
    Value.res_main_v89 (F := Ideal) m c
      = Cert.Layers.network (fun msg => mlp msg (B3 m c) (Cert.Layers.row64 (B4 m c)) (B5 m c) (Cert.Layers.row64 (B6 m c)))
          (fun msg => mlp msg (B7 m c) (Cert.Layers.row64 (B8 m c)) (B9 m c) (Cert.Layers.row64 (B10 m c)))
          (fun msg => mlp msg (B11 m c) (Cert.Layers.row32 (B12 m c)) (B13 m c) (Cert.Layers.row32 (B14 m c)))
          (B0 m c) (B1 m c) (B2 m c) := by
  rw [res_eq, hostMlpA_eq, hostMlpB_eq, hostMlpC_eq]

end Cert.ReferenceIdeal.Net

end
-- ==== Proof.lean ====
/-
  A three-layer message-passing network, its edge MLP a tiled kernel, against the same network written with array
  operations only.

  Both programs gather each edge's source-node features, append the edge attributes, pass the row through a two-layer
  MLP, average the MLP rows over each node's incoming edges, and clamp at zero between layers. They differ in the MLP
  alone: the kernel program launches it three times over 200 blocks of 8000 edges, each block's two matrix products
  taken from a zero accumulator on operands rounded to bf16; the reference runs two `dot_general`s over all edges.
  On the extended reals rounding is the identity, both matrix products are the plain sum over the contracted index, and
  a row of the MLP depends on its own message row only; so each launch leaves in its output array exactly the reference's
  MLP of the same messages, entry by entry, with the operations in the same order (no law of arithmetic beyond reading
  each operation at an index, and so no use of the inputs' finiteness). Every other step is the same host operation in
  both programs and is carried as one function.
-/
import proofs.«105351_j51694226375420_1_alg».proof.Defs
import proofs.«105351_j51694226375420_1_alg».proof.Proof.Gen.Kernel
import proofs.«105351_j51694226375420_1_alg».proof.Proof.Gen.Kernel.Skeleton
import proofs.«105351_j51694226375420_1_alg».proof.Proof.Gen.Kernel.Launch
import proofs.«105351_j51694226375420_1_alg».proof.Proof.Gen.Kernel.Points
import proofs.«105351_j51694226375420_1_alg».proof.Proof.Gen.Kernel.Frame
import proofs.«105351_j51694226375420_1_alg».proof.Proof.Gen.KernelIdeal
import proofs.«105351_j51694226375420_1_alg».proof.Proof.Gen.KernelIdeal.Skeleton
import proofs.«105351_j51694226375420_1_alg».proof.Proof.Gen.KernelIdeal.Launch
import proofs.«105351_j51694226375420_1_alg».proof.Proof.Gen.KernelIdeal.Points
import proofs.«105351_j51694226375420_1_alg».proof.Proof.Gen.KernelIdeal.Frame
import proofs.«105351_j51694226375420_1_alg».proof.Proof.Gen.ReferenceIdeal
import proofs.«105351_j51694226375420_1_alg».proof.Proof.Gen.ReferenceIdeal.Run
import proofs.«105351_j51694226375420_1_alg».proof.Proof.Gen.Pre_finite_inputs
import proofs.«105351_j51694226375420_1_alg».proof.Proof.KernelRun
import proofs.«105351_j51694226375420_1_alg».proof.Proof.KernelValue
import proofs.«105351_j51694226375420_1_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the three-layer network of the arguments in their
    result buffers: the kernel program by following its segments (each launch's output array the whole-array MLP), the
    reference by reading its host MLP as that same whole-array MLP. -/
theorem algebraic : Cert.algebraic_KernelIdeal_ReferenceIdeal := by
  intro m ρ m' ρ' _ hagree
  refine ⟨fun c => Cert.Layers.network (Cert.KernelIdeal.Chain.mlpA m c) (Cert.KernelIdeal.Chain.mlpB m c)
    (Cert.KernelIdeal.Chain.mlpC m c) (Cert.KernelIdeal.Chain.A0 m c) (Cert.KernelIdeal.Chain.A1 m c)
    (Cert.KernelIdeal.Chain.A2 m c), ?_, ?_⟩
  · exact (θ_run Cert.KernelIdeal.defs _ _).mono
      (fun _ h c => ⟨(h c).1.trans (Cert.KernelIdeal.Chain.result_eq m ρ c), (h c).2⟩)
      (Cert.KernelIdeal.Valued.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14⟩ := hagree c
    rw [Cert.ReferenceIdeal.Net.res_network]
    show Cert.Layers.network
        (fun msg => Cert.EdgeMlp.mlp msg (m' ((c.tc : Thread Cert.ReferenceIdeal.nD Cert.ReferenceIdeal.τ).loc Cert.ReferenceIdeal.main_arg3))
          (Cert.Layers.row64 (m' ((c.tc : Thread Cert.ReferenceIdeal.nD Cert.ReferenceIdeal.τ).loc Cert.ReferenceIdeal.main_arg4))) (m' ((c.tc : Thread Cert.ReferenceIdeal.nD Cert.ReferenceIdeal.τ).loc Cert.ReferenceIdeal.main_arg5))
          (Cert.Layers.row64 (m' ((c.tc : Thread Cert.ReferenceIdeal.nD Cert.ReferenceIdeal.τ).loc Cert.ReferenceIdeal.main_arg6))))
        (fun msg => Cert.EdgeMlp.mlp msg (m' ((c.tc : Thread Cert.ReferenceIdeal.nD Cert.ReferenceIdeal.τ).loc Cert.ReferenceIdeal.main_arg7))
          (Cert.Layers.row64 (m' ((c.tc : Thread Cert.ReferenceIdeal.nD Cert.ReferenceIdeal.τ).loc Cert.ReferenceIdeal.main_arg8))) (m' ((c.tc : Thread Cert.ReferenceIdeal.nD Cert.ReferenceIdeal.τ).loc Cert.ReferenceIdeal.main_arg9))
          (Cert.Layers.row64 (m' ((c.tc : Thread Cert.ReferenceIdeal.nD Cert.ReferenceIdeal.τ).loc Cert.ReferenceIdeal.main_arg10))))
        (fun msg => Cert.EdgeMlp.mlp msg (m' ((c.tc : Thread Cert.ReferenceIdeal.nD Cert.ReferenceIdeal.τ).loc Cert.ReferenceIdeal.main_arg11))
          (Cert.Layers.row32 (m' ((c.tc : Thread Cert.ReferenceIdeal.nD Cert.ReferenceIdeal.τ).loc Cert.ReferenceIdeal.main_arg12))) (m' ((c.tc : Thread Cert.ReferenceIdeal.nD Cert.ReferenceIdeal.τ).loc Cert.ReferenceIdeal.main_arg13))
          (Cert.Layers.row32 (m' ((c.tc : Thread Cert.ReferenceIdeal.nD Cert.ReferenceIdeal.τ).loc Cert.ReferenceIdeal.main_arg14))))
        (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) = _
    rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
